-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_cst_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_cst_10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_cst_10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S4x4x2x32x32 : Shape := ⟨5, ![4, 4, 2, 32, 32]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel
  bcast_S_S4x4x2x32x32 : S_.BroadcastsInDim S4x4x2x32x32 (![] : Fin 0 → Fin S4x4x2x32x32.rank)
  reducesTo_S4x4x2x32x32_S_d0_1_2_3_4 : S4x4x2x32x32.ReducesTo [0, 1, 2, 3, 4] S_

variable [Facts]

def fn_part1 {F : FTy → Type} [FloatOps F] (main_v13 : IVec S_ 1) (main_v16 : IVec S16x2048x3 1) : IVec S_ 1 :=
  let main_c_5 : IVec S_ 1 := constantI S_ 1 1#1
  let main_v17 : IVec S_ 1 := (fun x v => Host.reduce IntOp.andi x v reducesTo_S16x2048x3_S_d0_1_2 h_S_) main_v16 main_c_5
  let main_v18 : IVec S_ 1 := andi main_v13 main_v17
  main_v18

def fn {F : FTy → Type} [FloatOps F] (main_arg0 : FVec F S16x2048x3 .f32) (main_arg1 : FVec F S16x2048x3 .f32) (main_arg2 : FVec F S4x4x2x32x32 .f32) (main_arg3 : FVec F S16x2048x3 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  let main_v9 : FVec F S4x4x2x32x32 .f32 := Host.absf main_arg2
  let main_cst_2 : FVec F S_ .f32 := constant S_ .f32 0x7F800000#32
  let main_v10 : FVec F S4x4x2x32x32 .f32 := broadcastInDim S4x4x2x32x32 ![] bcast_S_S4x4x2x32x32 main_cst_2
  let main_v11 : IVec S4x4x2x32x32 1 := cmpf .olt main_v9 main_v10
  let main_c_3 : IVec S_ 1 := constantI S_ 1 1#1
  let main_v12 : IVec S_ 1 := (fun x v => Host.reduce IntOp.andi x v reducesTo_S4x4x2x32x32_S_d0_1_2_3_4 h_S_) main_v11 main_c_3
  let main_v13 : IVec S_ 1 := andi main_v8 main_v12
  let main_v14 : FVec F S16x2048x3 .f32 := Host.absf main_arg3
  let main_cst_4 : FVec F S_ .f32 := constant S_ .f32 0x7F800000#32
  let main_v15 : FVec F S16x2048x3 .f32 := broadcastInDim S16x2048x3 ![] bcast_S_S16x2048x3 main_cst_4
  let main_v16 : IVec S16x2048x3 1 := cmpf .olt main_v14 main_v15
  fn_part1 (F := F) main_v13 main_v16
-- ==== Kernel.lean ====
abbrev S16x2048x3 : Shape := ⟨3, ![16, 2048, 3]⟩
abbrev S4x4x2x32x32 : Shape := ⟨5, ![4, 4, 2, 32, 32]⟩
abbrev S_ : Shape := ⟨0, ![]⟩
abbrev S16x2048 : Shape := ⟨2, ![16, 2048]⟩
abbrev S16x2048x1 : Shape := ⟨3, ![16, 2048, 1]⟩
abbrev S16x2048x5 : Shape := ⟨3, ![16, 2048, 5]⟩
abbrev S8x256x5 : Shape := ⟨3, ![8, 256, 5]⟩
abbrev S8x2048x5 : Shape := ⟨3, ![8, 2048, 5]⟩
abbrev S8x256 : Shape := ⟨2, ![8, 256]⟩
abbrev S8x2048 : Shape := ⟨2, ![8, 2048]⟩
abbrev S8x512x5 : Shape := ⟨3, ![8, 512, 5]⟩
abbrev S8x256x512 : Shape := ⟨3, ![8, 256, 512]⟩
abbrev S8x512 : Shape := ⟨2, ![8, 512]⟩

abbrev nBuf : Space → Nat
  | .hbm => 41
  | .vmem => 9
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S4x4x2x32x32, .f32⟩
  | .hbm, ⟨3, _⟩ => ⟨S16x2048x3, .f32⟩
  | .hbm, ⟨4, _⟩ => ⟨S16x2048x3, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S_, .f32⟩
  | .hbm, ⟨11, _⟩ => ⟨S16x2048x3, .f32⟩
  | .hbm, ⟨12, _⟩ => ⟨S16x2048x3, .f32⟩
  | .hbm, ⟨13, _⟩ => ⟨S16x2048x5, .f32⟩
  | .hbm, ⟨14, _⟩ => ⟨S16x2048x3, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x5, .f32⟩
  | .hbm, ⟨21, _⟩ => ⟨S16x2048, .f32⟩
  | .hbm, ⟨22, _⟩ => ⟨S16x2048, .f32⟩
  | .hbm, ⟨23, _⟩ => ⟨S16x2048, .f32⟩
  | .hbm, ⟨24, _⟩ => ⟨S16x2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16x2048x3, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S8x256x5, .f32⟩
  | .local _ .vmem, ⟨1, _⟩ => ⟨S8x256x5, .f32⟩
  | .local _ .vmem, ⟨2, _⟩ => ⟨S8x2048x5, .f32⟩
  | .local _ .vmem, ⟨3, _⟩ => ⟨S8x2048x5, .f32⟩
  | .local _ .vmem, ⟨4, _⟩ => ⟨S8x256, .f32⟩
  | .local _ .vmem, ⟨5, _⟩ => ⟨S8x256, .f32⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_cst_9 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_10 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S16x2048x3_S16x2048_d2 : S16x2048x3.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S_S16x2048x3 : S_.BroadcastsInDim S16x2048x3 (![] : Fin 0 → Fin S16x2048x3.rank)
  concatenates_S16x2048x3_S16x2048x1_S16x2048x1_S16x2048x5_d2 : Shape.Concatenates [S16x2048x3, S16x2048x1, S16x2048x1] S16x2048x5 2
  inb_S8x256x5_S8x256x5_0_0_0 : ∀ a, (![0, 0, 0] : Fin 3 → Nat) a + S8x256x5.size a ≤ S8x256x5.size a
  h_S8x256x5 : 0 < S8x256x5.numel
  shapeCasts_S8x256x5_S8x256x5 : S8x256x5.ShapeCasts S8x256x5
  inb_S8x2048x5_S8x2048x5_0_0_0 : ∀ a, (![0, 0, 0] : Fin 3 → Nat) a + S8x2048x5.size a ≤ S8x2048x5.size a
  h_S8x2048x5 : 0 < S8x2048x5.numel
  shapeCasts_S8x2048x5_S8x2048x5 : S8x2048x5.ShapeCasts S8x2048x5
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  slices_S8x2048x5_o0_0_0_S8x512x5 : S8x2048x5.Slices ![0, 0, 0] S8x512x5
  reduces_S8x256x512_S8x256 : S8x256x512.Reduces [2] S8x256
  reduces_S8x256x512_S8x512 : S8x256x512.Reduces [1] S8x512
  inb_S8x2048_S8x512_0_0 : ∀ a, (![0, 0] : Fin 2 → Nat) a + S8x512.size a ≤ S8x2048.size a
  h_S8x512 : 0 < S8x512.numel
  shapeCasts_S8x512_S8x512 : S8x512.ShapeCasts S8x512
  slices_S8x2048x5_o0_512_0_S8x512x5 : S8x2048x5.Slices ![0, 512, 0] S8x512x5
  inb_S8x2048_S8x512_0_512 : ∀ a, (![0, 512] : Fin 2 → Nat) a + S8x512.size a ≤ S8x2048.size a
  slices_S8x2048x5_o0_1024_0_S8x512x5 : S8x2048x5.Slices ![0, 1024, 0] S8x512x5
  inb_S8x2048_S8x512_0_1024 : ∀ a, (![0, 1024] : Fin 2 → Nat) a + S8x512.size a ≤ S8x2048.size a
  slices_S8x2048x5_o0_1536_0_S8x512x5 : S8x2048x5.Slices ![0, 1536, 0] S8x512x5
  inb_S8x2048_S8x512_0_1536 : ∀ a, (![0, 1536] : Fin 2 → Nat) a + S8x512.size a ≤ S8x2048.size a
  inb_S8x256_S8x256_0_0 : ∀ a, (![0, 0] : Fin 2 → Nat) a + S8x256.size a ≤ S8x256.size a
  h_S8x256 : 0 < S8x256.numel
  shapeCasts_S4x4x2x32x32_S16x2048 : S4x4x2x32x32.ShapeCasts S16x2048
  reducesTo_S16x2048_S_d0_1 : S16x2048.ReducesTo [0, 1] S_
  reducesTo_S16x2048x3_S_d0_1_2 : S16x2048x3.ReducesTo [0, 1, 2] S_
  dot_S8x256x5_S8x512x5_S8x256x512_2_2_1_1_0_0_wf : DotDims.WF S8x256x5 S8x512x5 S8x256x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x5.size a ≤ S16x2048x5.size a
  hwx0_0 : ∀ i : grid0.Coords, EltTy.bits .f32 = 32 ∨ (Rect.block (s := S16x2048x5) S8x256x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048x5.size a ≤ S16x2048x5.size a
  hwx0_1 : ∀ i : grid0.Coords, EltTy.bits .f32 = 32 ∨ (Rect.block (s := S16x2048x5) S8x2048x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S16x2048.size a
  hwx0_2 : ∀ i : grid0.Coords, EltTy.bits .f32 = 32 ∨ (Rect.block (s := S16x2048) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S16x2048.size a
  hwx0_3 : ∀ i : grid0.Coords, EltTy.bits .f32 = 32 ∨ (Rect.block (s := S16x2048) S8x2048.size (cc0_transform_3 i) (hinb0_3 i)).WholeWords (EltTy.packing .f32)

variable [Facts₀]

def dot_S8x256x5_S8x512x5_S8x256x512_2_2_1_1_0_0 : DotDims S8x256x5 S8x512x5 S8x256x512 where
  lhsContracting := [2]
  rhsContracting := [2]
  lhsNonContracting := [1]
  rhsNonContracting := [1]
  lhsBatch := [0]
  rhsBatch := [0]
  wf := dot_S8x256x5_S8x512x5_S8x256x512_2_2_1_1_0_0_wf

abbrev win0_0 : Pipeline.Window sig grid0 :=
  Pipeline.Window.ofSpec (Memref.whole main_v6) S8x256x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S8x2048x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12_0) S8x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_1) S8x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x3 : Shape := ⟨3, ![16, 2048, 3]⟩
abbrev S4x4x2x32x32 : Shape := ⟨5, ![4, 4, 2, 32, 32]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S16x2048x2048 : Shape := ⟨3, ![16, 2048, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S4x4x2x32x32, .f32⟩
  | .hbm, ⟨3, _⟩ => ⟨S16x2048x3, .f32⟩
  | .hbm, ⟨4, _⟩ => ⟨S16x2048x3, .f32⟩
  | .hbm, ⟨5, _⟩ => ⟨S_, .f32⟩
  | .hbm, ⟨6, _⟩ => ⟨S16x2048, .f32⟩
  | .hbm, ⟨7, _⟩ => ⟨S16x2048x3, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S16x1x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S16x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16x2048x3, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_cst_9 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_10 : Ref sig .tc := ⟨.hbm, 41, rfl⟩

abbrev nD : Nat := 1
abbrev τ : Topo := Topo.v7x

variable {F : FTy → Type} [FloatOps F]

class Facts₀ : Prop where
  reducesTo_S16x2048x3_S16x2048_d2 : S16x2048x3.ReducesTo [2] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  reducesTo_S16x2048x2048_S16x2048_d1 : S16x2048x2048.ReducesTo [1] S16x2048
  shapeCasts_S4x4x2x32x32_S16x2048 : S4x4x2x32x32.ShapeCasts S16x2048
  reducesTo_S16x2048_S_d0_1 : S16x2048.ReducesTo [0, 1] S_
  reducesTo_S16x2048x3_S_d0_1_2 : S16x2048x3.ReducesTo [0, 1, 2] S_
  dot_S16x2048x3_S16x2048x3_S16x2048x2048_2_2_1_1_0_0_wf : DotDims.WF S16x2048x3 S16x2048x3 S16x2048x2048 [2] [2] [1] [1] [0] [0]

variable [Facts₀]

def dot_S16x2048x3_S16x2048x3_S16x2048x2048_2_2_1_1_0_0 : DotDims S16x2048x3 S16x2048x3 S16x2048x2048 where
  lhsContracting := [2]
  rhsContracting := [2]
  lhsNonContracting := [1]
  rhsNonContracting := [1]
  lhsBatch := [0]
  rhsBatch := [0]
  wf := dot_S16x2048x3_S16x2048x3_S16x2048x2048_2_2_1_1_0_0_wf

class Facts : Prop extends Facts₀ where

variable [Facts]
-- ==== Proof.WordAround.lean ====
/-
  The program's @main around its one kernel region: what the buffers hold when the region is entered (after
  the host lines that build the two augmented clouds), that the host lines after the region touch only
  buffers the region has given back, and that no line on either side writes an argument array. Then each
  window's block at a grid point, read off its array as the region finds it, and that an input window's
  staging buffer holds that block at every point, whether the pipeline fetched it there or kept it from the
  point before. Stated for any reading of the floats.
-/
import proofs.«112872_j39951785787527_2_alg».proof.Proof.Gen.Kernel.Launch
import proofs.«112872_j39951785787527_2_alg».proof.Proof.Gen.Kernel.Skeleton
import proofs.«112872_j39951785787527_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers of core `c` when the region is entered: after the host lines before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a host line after it, and the region's arrays are other buffers: argument 0 ends as launched. -/
theorem end_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  refine (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))).trans ?_
  exact (Pipeline.withArrays_of_ne _ c _ _ main_arg0 (by decide)).trans (V_main_arg0 m c)

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a host line after it, and the region's arrays are other buffers: argument 1 ends as launched. -/
theorem end_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  refine (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))).trans ?_
  exact (Pipeline.withArrays_of_ne _ c _ _ main_arg1 (by decide)).trans (V_main_arg1 m c)

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a host line after it, and the region's arrays are other buffers: argument 2 ends as launched. -/
theorem end_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  refine (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))).trans ?_
  exact (Pipeline.withArrays_of_ne _ c _ _ main_arg2 (by decide)).trans (V_main_arg2 m c)

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a host line after it, and the region's arrays are other buffers: argument 3 ends as launched. -/
theorem end_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  refine (StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))).trans ?_
  exact (Pipeline.withArrays_of_ne _ c _ _ main_arg3 (by decide)).trans (V_main_arg3 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input's staging buffer holds its block at every point: where the pipeline does not fetch it, the block
    index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that ends with every buffer outside the region's arrays as the host lines after the region leave it
    ends with the four argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (end_main_arg0 m dats c),
      ((h c).2 main_arg1 (Pipeline.mem_restRefs_of main_arg1 (by decide) (by decide))).trans (end_main_arg1 m dats c),
      ((h c).2 main_arg2 (Pipeline.mem_restRefs_of main_arg2 (by decide) (by decide))).trans (end_main_arg2 m dats c),
      ((h c).2 main_arg3 (Pipeline.mem_restRefs_of main_arg3 (by decide) (by decide))).trans (end_main_arg3 m dats c)⟩) h

/-! ## The body's one branch: is this the first row tile of its batch block? -/

/-- The condition of the body's conditional, from the grid coordinates: the row-tile coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- No window is ever idle: the body loads both inputs and stores both outputs at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The staging memrefs and the scratch accumulator -/

/-- One staging buffer of each output window, through which its contents are stated (the choice does not matter). -/
abbrev VO0_2 : View sig .tc .vmem S8x256 .f32 := (Memref.whole cc0_stg2_0 : Memref sig .tc .vmem S8x256 .f32).view
abbrev VO0_3 : View sig .tc .vmem S8x2048 .f32 := (Memref.whole cc0_stg3_0 : Memref sig .tc .vmem S8x2048 .f32).view
/-- Each window's current staging memref at point `t`, as the pipeline passes it, and that it is a whole buffer. -/
abbrev ms0_0 (t : Fin cfg0.N) : Memref sig .tc .vmem S8x256x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x2048x5 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x2048 .f32 := win0_3.stage (cfg0.slots t 3)
abbrev hs0_3 (t : Fin cfg0.N) : (ms0_3 t).IsWhole := hstage0_3 ((cfg0.slots t 3).cast nbuf0_3)
/-- The scratch accumulator: a whole scoped buffer of the kernel's own, carried between points. -/
abbrev scM0_0 : Memref sig .tc .vmem S8x2048 .f32 := Memref.whole cc0_scratch0
/-- The same as a view: what it holds is stated through it. -/
abbrev VS0_0 : View sig .tc .vmem S8x2048 .f32 := scM0_0.view

/-- What the region's invariant holds besides the windows: the scratch accumulator at some contents and the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Region

end
-- ==== Proof.WordRunFirst.lean ====
/-
  The kernel body at the FIRST row tile of a batch block (the row-tile coordinate is zero): it first fills the
  scratch accumulator with +inf, so the accumulator may start at anything. The body is run once, symbolically, on
  whole staging buffers — the two inputs at given contents, the two outputs and the scratch at anything — and what
  its stores leave in each output buffer and in the scratch is found as a list of written rectangles.
-/
import proofs.«112872_j39951785787527_2_alg».proof.Proof.WordAround

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the two output buffers and the scratch at a first row tile, as lists of written
    rectangles (last first), with the proof that the body runs to a continuation holding the inputs as they were
    and those rectangles written. -/
noncomputable def kernelRun0_A (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) :
    Σ' (L2 : List (View.Piece (Elt F) S8x256 .f32)) (L3 : List (View.Piece (Elt F) S8x2048 .f32)), { LS0 : List (View.Piece (Elt F) S8x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Region

end
-- ==== Proof.WordRunLater.lean ====
/-
  The kernel body at a LATER row tile of a batch block (the row-tile coordinate is not zero): the scratch
  accumulator holds what the tile before left, and the body folds this tile's column minima into it. Run once,
  symbolically, as at the first tile, with the scratch at given contents.
-/
import proofs.«112872_j39951785787527_2_alg».proof.Proof.WordRunFirst

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the two output buffers and the scratch at a later row tile, the scratch starting at
    `xs0`: lists of written rectangles (last first), with the proof that the body runs to a continuation holding
    the inputs as they were and those rectangles written. -/
noncomputable def kernelRun0_B (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) :
    Σ' (L2 : List (View.Piece (Elt F) S8x256 .f32)) (L3 : List (View.Piece (Elt F) S8x2048 .f32)), { LS0 : List (View.Piece (Elt F) S8x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Region

end
-- ==== Proof.WordFrame.lean ====
/-
  The frame of the program: it runs to the end, nothing faults, and the four argument arrays end as launched.

  What the two output buffers and the scratch accumulator hold after the body at each grid point is defined by
  recursion on the point: at the first row tile of a batch block the body's first case (the accumulator is reset),
  at a later tile its second case over what the tile before left in the accumulator. The region's invariant carries
  the accumulator at those contents from one point to the next. With that, the body's obligation at every point is
  one of the two symbolic runs, and the library's launch theorem for a kernel with host lines on both sides gives
  the run of the whole program.
-/
import proofs.«112872_j39951785787527_2_alg».proof.Proof.WordRunLater

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rectangles case A writes into the first output buffer tile it (one store of the whole block), so they cover it. -/
theorem cover0_A_2 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) (y : S8x256.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S8x256.size (by sl_kernel_rfl) y
/-- What case A leaves in the first output buffer: its rectangles read back. -/
def out0_A_2 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) : Vec F S8x256 .f32 :=
  VO0_2.read (Elt F) (VO0_2.writes (Elt F) VO0_2.junk (kernelRun0_A c i arg2 harg2 arg3 harg3 arg4 harg4 arg5 harg5 arg6 harg6 hc0 x0 x1).1)
/-- The rectangles case A writes into the second output buffer cover it (one store of the whole block). -/
theorem cover0_A_3 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) (y : S8x2048.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S8x2048.size (by sl_kernel_rfl) y
/-- What case A leaves in the second output buffer. -/
def out0_A_3 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) : Vec F S8x2048 .f32 :=
  VO0_3.read (Elt F) (VO0_3.writes (Elt F) VO0_3.junk (kernelRun0_A c i arg2 harg2 arg3 harg3 arg4 harg4 arg5 harg5 arg6 harg6 hc0 x0 x1).2.1)
/-- The rectangles case A writes into the scratch cover it: the four column slices of 512 tile it. -/
theorem scover0_A_0 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) (y : S8x2048.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S8x512.size (by sl_kernel_rfl) y
/-- What case A leaves in the scratch. -/
def sout0_A_0 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) : Vec F S8x2048 .f32 :=
  VS0_0.read (Elt F) (VS0_0.writes (Elt F) VS0_0.junk (kernelRun0_A c i arg2 harg2 arg3 harg3 arg4 harg4 arg5 harg5 arg6 harg6 hc0 x0 x1).2.2.1)

/-- The rectangles case B writes into the first output buffer tile it (one store of the whole block), so they cover it. -/
theorem cover0_B_2 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) (y : S8x256.Idx) :
    ∃ pc ∈ (kernelRun0_B c i arg2 harg2 arg3 harg3 arg4 harg4 arg5 harg5 arg6 harg6 hc0 x0 x1 xs0).1, y ∈ pc.1.set :=
  View.cover_of_tiledL (kernelRun0_B c i arg2 harg2 arg3 harg3 arg4 harg4 arg5 harg5 arg6 harg6 hc0 x0 x1 xs0).1 S8x256.size (by sl_kernel_rfl) y
/-- What case B leaves in the first output buffer: its rectangles read back. -/
def out0_B_2 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) : Vec F S8x256 .f32 :=
  VO0_2.read (Elt F) (VO0_2.writes (Elt F) VO0_2.junk (kernelRun0_B c i arg2 harg2 arg3 harg3 arg4 harg4 arg5 harg5 arg6 harg6 hc0 x0 x1 xs0).1)
/-- The rectangles case B writes into the second output buffer cover it (one store of the whole block). -/
theorem cover0_B_3 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) (y : S8x2048.Idx) :
    ∃ pc ∈ (kernelRun0_B c i arg2 harg2 arg3 harg3 arg4 harg4 arg5 harg5 arg6 harg6 hc0 x0 x1 xs0).2.1, y ∈ pc.1.set :=
  View.cover_of_tiledL (kernelRun0_B c i arg2 harg2 arg3 harg3 arg4 harg4 arg5 harg5 arg6 harg6 hc0 x0 x1 xs0).2.1 S8x2048.size (by sl_kernel_rfl) y
/-- What case B leaves in the second output buffer. -/
def out0_B_3 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) : Vec F S8x2048 .f32 :=
  VO0_3.read (Elt F) (VO0_3.writes (Elt F) VO0_3.junk (kernelRun0_B c i arg2 harg2 arg3 harg3 arg4 harg4 arg5 harg5 arg6 harg6 hc0 x0 x1 xs0).2.1)
/-- The rectangles case B writes into the scratch cover it: the four column slices of 512 tile it. -/
theorem scover0_B_0 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) (y : S8x2048.Idx) :
    ∃ pc ∈ (kernelRun0_B c i arg2 harg2 arg3 harg3 arg4 harg4 arg5 harg5 arg6 harg6 hc0 x0 x1 xs0).2.2.1, y ∈ pc.1.set :=
  View.cover_of_tiledL (kernelRun0_B c i arg2 harg2 arg3 harg3 arg4 harg4 arg5 harg5 arg6 harg6 hc0 x0 x1 xs0).2.2.1 S8x512.size (by sl_kernel_rfl) y
/-- What case B leaves in the scratch. -/
def sout0_B_0 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) : Vec F S8x2048 .f32 :=
  VS0_0.read (Elt F) (VS0_0.writes (Elt F) VS0_0.junk (kernelRun0_B c i arg2 harg2 arg3 harg3 arg4 harg4 arg5 harg5 arg6 harg6 hc0 x0 x1 xs0).2.2.1)

/-! ## What the outputs and the accumulator hold after each point -/

/-- After a first row tile `t`: the first case's contents (first output, second output, accumulator). -/
def ptA (c : Dev nD) (t : Fin cfg0.N) (h0 : t.val % 8 = 0) : Vec F S8x256 .f32 × Vec F S8x2048 .f32 × Vec F S8x2048 .f32 :=
  (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t),
   out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t))
/-- After a later row tile `t`, the accumulator having started at `xs0`: the second case's contents. -/
def ptB (c : Dev nD) (t : Fin cfg0.N) (h0 : ¬t.val % 8 = 0) (xs0 : Vec F S8x2048 .f32) : Vec F S8x256 .f32 × Vec F S8x2048 .f32 × Vec F S8x2048 .f32 :=
  (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) xs0,
   out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) xs0,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) xs0)

/-- THE ACCUMULATION: the contents after the point at position `n`, by recursion on `n`. -/
def outsAt0 (c : Dev nD) : (n : ℕ) → n < cfg0.N → Vec F S8x256 .f32 × Vec F S8x2048 .f32 × Vec F S8x2048 .f32
  | 0, hn => ptA m c ⟨0, hn⟩ (Nat.zero_mod _)
  | n + 1, hn =>
    if h0 : (n + 1) % 8 = 0 then ptA m c ⟨n + 1, hn⟩ h0
    else ptB m c ⟨n + 1, hn⟩ h0 (outsAt0 c n (Nat.lt_of_succ_lt hn)).2.2

theorem outsAt0_A (c : Dev nD) (t : Fin cfg0.N) (h0 : t.val % 8 = 0) :
    outsAt0 m c t.val t.isLt = ptA m c t h0 := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = ptB m c t h0 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The region's invariant before position `n`: before the first point the scratch at anything; afterwards the
    scratch at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body each input buffer at its block and each output buffer at
    `outsAt0`'s component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's position says which case it is in; the
    invariant hands the body the accumulator (at anything at the very first point, else at what the point before
    left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · rw [outsAt0_A m c t h0]
    unfold ptA out0_A_2 out0_A_3 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk m c 0 t) (iblk m c 1 t)).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _)
      unfold owns; iexists _; isplitr
      swap; · iexact H3
      ipureintro; exact View.read_writes_of_cover _ _ _ _ _ (cover0_A_3 c _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk m c 0 t) (iblk m c 1 t)).2.2.2 Set.univ _)
      isplitl [H0]; · iexact H0
      isplitl [H1]; · iexact H1
      isplitl [H2]; · iexists _; iexact H2
      isplitl [H3]; · iexists _; iexact H3
      isplitl [HS0]; · iexists _; iexact HS0
      iintro ⟨H0, H1, ⟨%e2, H2⟩, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _)
      unfold owns; iexists _; isplitr
      swap; · iexact H3
      ipureintro; exact View.read_writes_of_cover _ _ _ _ _ (cover0_A_3 c _ _ _ _ _ _ _ _ _ _ _ _ _ _)
  · rw [outsAt0_B m c t h0]
    unfold ptB out0_B_2 out0_B_3 sout0_B_0; (try dsimp only)
    by_cases hz : t.val = 0
    · exfalso; rw [hz] at h0; exact h0 (Nat.zero_mod _)
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _)
      unfold owns; iexists _; isplitr
      swap; · iexact H3
      ipureintro; exact View.read_writes_of_cover _ _ _ _ _ (cover0_B_3 c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- From any memory with zero counters every weakly fair execution of @main terminates, with every array of the
    region at what the proof data computes and every other unscoped buffer as the host lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, for any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Region

end
-- ==== Proof.IdealAround.lean ====
/-
  The program's @main around its one kernel region: what the buffers hold when the region is entered (after
  the host lines that build the two augmented clouds), that the host lines after the region touch only
  buffers the region has given back, and that no line on either side writes an argument array. Then each
  window's block at a grid point, read off its array as the region finds it, and that an input window's
  staging buffer holds that block at every point, whether the pipeline fetched it there or kept it from the
  point before. Stated for any reading of the floats.
-/
import proofs.«112872_j39951785787527_2_alg».proof.Proof.Gen.KernelIdeal.Launch
import proofs.«112872_j39951785787527_2_alg».proof.Proof.Gen.KernelIdeal.Skeleton
import proofs.«112872_j39951785787527_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers of core `c` when the region is entered: after the host lines before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a host line after it, and the region's arrays are other buffers: argument 0 ends as launched. -/
theorem end_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  refine (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))).trans ?_
  exact (Pipeline.withArrays_of_ne _ c _ _ main_arg0 (by decide)).trans (V_main_arg0 m c)

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a host line after it, and the region's arrays are other buffers: argument 1 ends as launched. -/
theorem end_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  refine (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))).trans ?_
  exact (Pipeline.withArrays_of_ne _ c _ _ main_arg1 (by decide)).trans (V_main_arg1 m c)

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a host line after it, and the region's arrays are other buffers: argument 2 ends as launched. -/
theorem end_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  refine (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))).trans ?_
  exact (Pipeline.withArrays_of_ne _ c _ _ main_arg2 (by decide)).trans (V_main_arg2 m c)

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a host line after it, and the region's arrays are other buffers: argument 3 ends as launched. -/
theorem end_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  refine (StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))).trans ?_
  exact (Pipeline.withArrays_of_ne _ c _ _ main_arg3 (by decide)).trans (V_main_arg3 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input's staging buffer holds its block at every point: where the pipeline does not fetch it, the block
    index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that ends with every buffer outside the region's arrays as the host lines after the region leave it
    ends with the four argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (end_main_arg0 m dats c),
      ((h c).2 main_arg1 (Pipeline.mem_restRefs_of main_arg1 (by decide) (by decide))).trans (end_main_arg1 m dats c),
      ((h c).2 main_arg2 (Pipeline.mem_restRefs_of main_arg2 (by decide) (by decide))).trans (end_main_arg2 m dats c),
      ((h c).2 main_arg3 (Pipeline.mem_restRefs_of main_arg3 (by decide) (by decide))).trans (end_main_arg3 m dats c)⟩) h

/-! ## The body's one branch: is this the first row tile of its batch block? -/

/-- The condition of the body's conditional, from the grid coordinates: the row-tile coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- No window is ever idle: the body loads both inputs and stores both outputs at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The staging memrefs and the scratch accumulator -/

/-- One staging buffer of each output window, through which its contents are stated (the choice does not matter). -/
abbrev VO0_2 : View sig .tc .vmem S8x256 .f32 := (Memref.whole cc0_stg2_0 : Memref sig .tc .vmem S8x256 .f32).view
abbrev VO0_3 : View sig .tc .vmem S8x2048 .f32 := (Memref.whole cc0_stg3_0 : Memref sig .tc .vmem S8x2048 .f32).view
/-- Each window's current staging memref at point `t`, as the pipeline passes it, and that it is a whole buffer. -/
abbrev ms0_0 (t : Fin cfg0.N) : Memref sig .tc .vmem S8x256x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x2048x5 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x2048 .f32 := win0_3.stage (cfg0.slots t 3)
abbrev hs0_3 (t : Fin cfg0.N) : (ms0_3 t).IsWhole := hstage0_3 ((cfg0.slots t 3).cast nbuf0_3)
/-- The scratch accumulator: a whole scoped buffer of the kernel's own, carried between points. -/
abbrev scM0_0 : Memref sig .tc .vmem S8x2048 .f32 := Memref.whole cc0_scratch0
/-- The same as a view: what it holds is stated through it. -/
abbrev VS0_0 : View sig .tc .vmem S8x2048 .f32 := scM0_0.view

/-- What the region's invariant holds besides the windows: the scratch accumulator at some contents and the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Region

end
-- ==== Proof.IdealRunFirst.lean ====
/-
  The kernel body at the FIRST row tile of a batch block (the row-tile coordinate is zero): it first fills the
  scratch accumulator with +inf, so the accumulator may start at anything. The body is run once, symbolically, on
  whole staging buffers — the two inputs at given contents, the two outputs and the scratch at anything — and what
  its stores leave in each output buffer and in the scratch is found as a list of written rectangles.
-/
import proofs.«112872_j39951785787527_2_alg».proof.Proof.IdealAround

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the two output buffers and the scratch at a first row tile, as lists of written
    rectangles (last first), with the proof that the body runs to a continuation holding the inputs as they were
    and those rectangles written. -/
noncomputable def kernelRun0_A (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) :
    Σ' (L2 : List (View.Piece (Elt F) S8x256 .f32)) (L3 : List (View.Piece (Elt F) S8x2048 .f32)), { LS0 : List (View.Piece (Elt F) S8x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Region

end
-- ==== Proof.IdealRunLater.lean ====
/-
  The kernel body at a LATER row tile of a batch block (the row-tile coordinate is not zero): the scratch
  accumulator holds what the tile before left, and the body folds this tile's column minima into it. Run once,
  symbolically, as at the first tile, with the scratch at given contents.
-/
import proofs.«112872_j39951785787527_2_alg».proof.Proof.IdealRunFirst

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the two output buffers and the scratch at a later row tile, the scratch starting at
    `xs0`: lists of written rectangles (last first), with the proof that the body runs to a continuation holding
    the inputs as they were and those rectangles written. -/
noncomputable def kernelRun0_B (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) :
    Σ' (L2 : List (View.Piece (Elt F) S8x256 .f32)) (L3 : List (View.Piece (Elt F) S8x2048 .f32)), { LS0 : List (View.Piece (Elt F) S8x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Region

end
-- ==== Proof.IdealFrame.lean ====
/-
  The frame of the program: it runs to the end, nothing faults, and the four argument arrays end as launched.

  What the two output buffers and the scratch accumulator hold after the body at each grid point is defined by
  recursion on the point: at the first row tile of a batch block the body's first case (the accumulator is reset),
  at a later tile its second case over what the tile before left in the accumulator. The region's invariant carries
  the accumulator at those contents from one point to the next. With that, the body's obligation at every point is
  one of the two symbolic runs, and the library's launch theorem for a kernel with host lines on both sides gives
  the run of the whole program.
-/
import proofs.«112872_j39951785787527_2_alg».proof.Proof.IdealRunLater

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rectangles case A writes into the first output buffer tile it (one store of the whole block), so they cover it. -/
theorem cover0_A_2 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) (y : S8x256.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S8x256.size (by sl_kernel_rfl) y
/-- What case A leaves in the first output buffer: its rectangles read back. -/
def out0_A_2 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) : Vec F S8x256 .f32 :=
  VO0_2.read (Elt F) (VO0_2.writes (Elt F) VO0_2.junk (kernelRun0_A c i arg2 harg2 arg3 harg3 arg4 harg4 arg5 harg5 arg6 harg6 hc0 x0 x1).1)
/-- The rectangles case A writes into the second output buffer cover it (one store of the whole block). -/
theorem cover0_A_3 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) (y : S8x2048.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S8x2048.size (by sl_kernel_rfl) y
/-- What case A leaves in the second output buffer. -/
def out0_A_3 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) : Vec F S8x2048 .f32 :=
  VO0_3.read (Elt F) (VO0_3.writes (Elt F) VO0_3.junk (kernelRun0_A c i arg2 harg2 arg3 harg3 arg4 harg4 arg5 harg5 arg6 harg6 hc0 x0 x1).2.1)
/-- The rectangles case A writes into the scratch cover it: the four column slices of 512 tile it. -/
theorem scover0_A_0 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) (y : S8x2048.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S8x512.size (by sl_kernel_rfl) y
/-- What case A leaves in the scratch. -/
def sout0_A_0 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i)
    (x0 : Vec F S8x256x5 .f32) (x1 : Vec F S8x2048x5 .f32) : Vec F S8x2048 .f32 :=
  VS0_0.read (Elt F) (VS0_0.writes (Elt F) VS0_0.junk (kernelRun0_A c i arg2 harg2 arg3 harg3 arg4 harg4 arg5 harg5 arg6 harg6 hc0 x0 x1).2.2.1)

/-- The rectangles case B writes into the first output buffer tile it (one store of the whole block), so they cover it. -/
theorem cover0_B_2 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) (y : S8x256.Idx) :
    ∃ pc ∈ (kernelRun0_B c i arg2 harg2 arg3 harg3 arg4 harg4 arg5 harg5 arg6 harg6 hc0 x0 x1 xs0).1, y ∈ pc.1.set :=
  View.cover_of_tiledL (kernelRun0_B c i arg2 harg2 arg3 harg3 arg4 harg4 arg5 harg5 arg6 harg6 hc0 x0 x1 xs0).1 S8x256.size (by sl_kernel_rfl) y
/-- What case B leaves in the first output buffer: its rectangles read back. -/
def out0_B_2 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) : Vec F S8x256 .f32 :=
  VO0_2.read (Elt F) (VO0_2.writes (Elt F) VO0_2.junk (kernelRun0_B c i arg2 harg2 arg3 harg3 arg4 harg4 arg5 harg5 arg6 harg6 hc0 x0 x1 xs0).1)
/-- The rectangles case B writes into the second output buffer cover it (one store of the whole block). -/
theorem cover0_B_3 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) (y : S8x2048.Idx) :
    ∃ pc ∈ (kernelRun0_B c i arg2 harg2 arg3 harg3 arg4 harg4 arg5 harg5 arg6 harg6 hc0 x0 x1 xs0).2.1, y ∈ pc.1.set :=
  View.cover_of_tiledL (kernelRun0_B c i arg2 harg2 arg3 harg3 arg4 harg4 arg5 harg5 arg6 harg6 hc0 x0 x1 xs0).2.1 S8x2048.size (by sl_kernel_rfl) y
/-- What case B leaves in the second output buffer. -/
def out0_B_3 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) : Vec F S8x2048 .f32 :=
  VO0_3.read (Elt F) (VO0_3.writes (Elt F) VO0_3.junk (kernelRun0_B c i arg2 harg2 arg3 harg3 arg4 harg4 arg5 harg5 arg6 harg6 hc0 x0 x1 xs0).2.1)
/-- The rectangles case B writes into the scratch cover it: the four column slices of 512 tile it. -/
theorem scover0_B_0 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) (y : S8x2048.Idx) :
    ∃ pc ∈ (kernelRun0_B c i arg2 harg2 arg3 harg3 arg4 harg4 arg5 harg5 arg6 harg6 hc0 x0 x1 xs0).2.2.1, y ∈ pc.1.set :=
  View.cover_of_tiledL (kernelRun0_B c i arg2 harg2 arg3 harg3 arg4 harg4 arg5 harg5 arg6 harg6 hc0 x0 x1 xs0).2.2.1 S8x512.size (by sl_kernel_rfl) y
/-- What case B leaves in the scratch. -/
def sout0_B_0 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i)
    (x0 : Vec F S8x256x5 .f32) (x1 : Vec F S8x2048x5 .f32) (xs0 : Vec F S8x2048 .f32) : Vec F S8x2048 .f32 :=
  VS0_0.read (Elt F) (VS0_0.writes (Elt F) VS0_0.junk (kernelRun0_B c i arg2 harg2 arg3 harg3 arg4 harg4 arg5 harg5 arg6 harg6 hc0 x0 x1 xs0).2.2.1)

/-! ## What the outputs and the accumulator hold after each point -/

/-- After a first row tile `t`: the first case's contents (first output, second output, accumulator). -/
def ptA (c : Dev nD) (t : Fin cfg0.N) (h0 : t.val % 8 = 0) : Vec F S8x256 .f32 × Vec F S8x2048 .f32 × Vec F S8x2048 .f32 :=
  (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t),
   out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t))
/-- After a later row tile `t`, the accumulator having started at `xs0`: the second case's contents. -/
def ptB (c : Dev nD) (t : Fin cfg0.N) (h0 : ¬t.val % 8 = 0) (xs0 : Vec F S8x2048 .f32) : Vec F S8x256 .f32 × Vec F S8x2048 .f32 × Vec F S8x2048 .f32 :=
  (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) xs0,
   out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) xs0,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) xs0)

/-- THE ACCUMULATION: the contents after the point at position `n`, by recursion on `n`. -/
def outsAt0 (c : Dev nD) : (n : ℕ) → n < cfg0.N → Vec F S8x256 .f32 × Vec F S8x2048 .f32 × Vec F S8x2048 .f32
  | 0, hn => ptA m c ⟨0, hn⟩ (Nat.zero_mod _)
  | n + 1, hn =>
    if h0 : (n + 1) % 8 = 0 then ptA m c ⟨n + 1, hn⟩ h0
    else ptB m c ⟨n + 1, hn⟩ h0 (outsAt0 c n (Nat.lt_of_succ_lt hn)).2.2

theorem outsAt0_A (c : Dev nD) (t : Fin cfg0.N) (h0 : t.val % 8 = 0) :
    outsAt0 m c t.val t.isLt = ptA m c t h0 := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = ptB m c t h0 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The region's invariant before position `n`: before the first point the scratch at anything; afterwards the
    scratch at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body each input buffer at its block and each output buffer at
    `outsAt0`'s component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's position says which case it is in; the
    invariant hands the body the accumulator (at anything at the very first point, else at what the point before
    left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · rw [outsAt0_A m c t h0]
    unfold ptA out0_A_2 out0_A_3 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk m c 0 t) (iblk m c 1 t)).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _)
      unfold owns; iexists _; isplitr
      swap; · iexact H3
      ipureintro; exact View.read_writes_of_cover _ _ _ _ _ (cover0_A_3 c _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk m c 0 t) (iblk m c 1 t)).2.2.2 Set.univ _)
      isplitl [H0]; · iexact H0
      isplitl [H1]; · iexact H1
      isplitl [H2]; · iexists _; iexact H2
      isplitl [H3]; · iexists _; iexact H3
      isplitl [HS0]; · iexists _; iexact HS0
      iintro ⟨H0, H1, ⟨%e2, H2⟩, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _)
      unfold owns; iexists _; isplitr
      swap; · iexact H3
      ipureintro; exact View.read_writes_of_cover _ _ _ _ _ (cover0_A_3 c _ _ _ _ _ _ _ _ _ _ _ _ _ _)
  · rw [outsAt0_B m c t h0]
    unfold ptB out0_B_2 out0_B_3 sout0_B_0; (try dsimp only)
    by_cases hz : t.val = 0
    · exfalso; rw [hz] at h0; exact h0 (Nat.zero_mod _)
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _)
      unfold owns; iexists _; isplitr
      swap; · iexact H3
      ipureintro; exact View.read_writes_of_cover _ _ _ _ _ (cover0_B_3 c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- From any memory with zero counters every weakly fair execution of @main terminates, with every array of the
    region at what the proof data computes and every other unscoped buffer as the host lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, for any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Region

end
-- ==== Proof.IdealPieces.lean ====
/-
  What the kernel body's stores leave in the two output buffers and in the scratch accumulator, read back as
  the body's arithmetic. The first output is one store of the running row minimum. The scratch is four stores,
  one per column slice of 512, each the minimum of what the slice held and this tile's column minimum; at a
  first row tile what the slice held is the +inf fill the body started with. The second output is a copy of the
  scratch.
-/
import proofs.«112872_j39951785787527_2_alg».proof.Proof.IdealFrame
import Idealize.ShloMosaic.Lib.Pipeline.Value
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Column slices of the accumulator -/

/-- Row `b`, column `q` of the 512-column slice at column offset `o` is row `b`, column `o + q` of the buffer. -/
theorem emb_cols (o : ℕ) (inb : ∀ a, (![0, o] : Fin 2 → ℕ) a + S8x512.size a ≤ S8x2048.size a)
    (b : Fin 8) (q : Fin 512) (j : Fin 2048) (hj : j.val = o + q.val) :
    (Rect.unit (s := S8x2048) ![0, o] S8x512.size inb).emb (ix2 b q) = ix2 b j := by
  funext a
  match a with
  | ⟨0, _⟩ => apply Fin.ext; show 0 + 1 * b.val = b.val; omega
  | ⟨1, _⟩ => apply Fin.ext; show o + 1 * q.val = j.val; omega

/-- A column outside `o`, …, `o + 511` is not in that slice. -/
theorem not_mem_cols (o : ℕ) (inb : ∀ a, (![0, o] : Fin 2 → ℕ) a + S8x512.size a ≤ S8x2048.size a)
    (b : Fin 8) (j : Fin 2048) (h : j.val < o ∨ o + 512 ≤ j.val) :
    ix2 b j ∉ (Rect.unit (s := S8x2048) ![0, o] S8x512.size inb).set := by
  intro hm
  have h1 : o ≤ j.val ∧ j.val < o + 512 := (Rect.mem_set_unit.mp hm) (⟨1, Nat.one_lt_two⟩ : Fin 2)
  omega

/-- A load of the slice at offset `o` of contents `X` reads, at row `b`, column `q`, `X` at column `o + q`. -/
theorem ld_cols (o : ℕ) (inb : ∀ a, (![0, o] : Fin 2 → ℕ) a + S8x512.size a ≤ S8x2048.size a)
    (X : Vec F S8x2048 .f32) (b : Fin 8) (q : Fin 512) (j : Fin 2048) (hj : j.val = o + q.val) :
    View.ld X (Rect.unit (s := S8x2048) ![0, o] S8x512.size inb) (ix2 b q) = X (ix2 b j) :=
  congrArg X (emb_cols o inb b q j hj)

/-- Off the slice at offset `o`, the latest store into it does not matter. -/
theorem canon_skip (o : ℕ) (inb : ∀ a, (![0, o] : Fin 2 → ℕ) a + S8x512.size a ≤ S8x2048.size a)
    (w : (Rect.unit (s := S8x2048) ![0, o] S8x512.size inb).shape.Idx → Elt F .f32) (L : List (View.Piece (Elt F) S8x2048 .f32))
    (b : Fin 8) (j : Fin 2048) (h : j.val < o ∨ o + 512 ≤ j.val) :
    View.canon ((⟨Rect.unit (s := S8x2048) ![0, o] S8x512.size inb, w⟩ : View.Piece (Elt F) S8x2048 .f32) :: L) (ix2 b j) = View.canon L (ix2 b j) :=
  View.canon_cons_of_not_mem _ L (not_mem_cols o inb b j h)

/-- On it, the latest store's payload. -/
theorem canon_hit (o : ℕ) (inb : ∀ a, (![0, o] : Fin 2 → ℕ) a + S8x512.size a ≤ S8x2048.size a)
    (w : (Rect.unit (s := S8x2048) ![0, o] S8x512.size inb).shape.Idx → Elt F .f32) (L : List (View.Piece (Elt F) S8x2048 .f32))
    (b : Fin 8) (q : Fin 512) (j : Fin 2048) (hj : j.val = o + q.val) :
    View.canon ((⟨Rect.unit (s := S8x2048) ![0, o] S8x512.size inb, w⟩ : View.Piece (Elt F) S8x2048 .f32) :: L) (ix2 b j) = w (ix2 b q) := by
  rw [← emb_cols o inb b q j hj]
  exact View.canon_cons_emb _ w L (ix2 b q)

/-- A reload of that slice after the stores `L` reads what they left at column `o + q`. -/
theorem readCov_cols (v : View sig .tc .vmem S8x2048 .f32) (L : List (View.Piece (Elt F) S8x2048 .f32))
    (o : ℕ) (inb : ∀ a, (![0, o] : Fin 2 → ℕ) a + S8x512.size a ≤ S8x2048.size a) (b : Fin 8) (q : Fin 512) (j : Fin 2048) (hj : j.val = o + q.val) :
    v.readCov L (Rect.unit (s := S8x2048) ![0, o] S8x512.size inb).toLoadRect (ix2 b q) = View.canon L (ix2 b j) := by
  rw [View.readCov_eq_canon']
  exact congrArg (View.canon L) (emb_cols o inb b q j hj)

/-- After the one store of the whole buffer, the buffer holds that store's payload. -/
theorem canon_fill (w : S8x2048.Idx → Elt F .f32) (y : S8x2048.Idx) :
    View.canon [(⟨Rect.unit (s := S8x2048) ![0, 0] S8x2048.size inb_S8x2048_S8x2048_0_0, w⟩ : View.Piece (Elt F) S8x2048 .f32)] y = w y :=
  congrFun (View.canon_unit_zero (by funext a; fin_cases a <;> rfl : (![0, 0] : Fin 2 → ℕ) = fun _ => 0) _ w) y

/-! ## The first output: the running row minimum -/

theorem out0_A_2_eq (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i) (x0 : Vec F S8x256x5 .f32) (x1 : Vec F S8x2048x5 .f32) :
    out0_A_2 (F := F) c i arg2 harg2 arg3 harg3 arg4 harg4 arg5 harg5 arg6 harg6 hc0 x0 x1 = k0_pay3 (k0_pay5 x0) (k0_pay6 x1) (k0_pay11 x0 x1) (k0_pay13 x0 x1) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero (by funext a; fin_cases a <;> rfl : (![0, 0] : Fin 2 → ℕ) = fun _ => 0)]
  simp only [View.readAt_eq_ld, harg2.read_unread, harg3.read_unread, View.ld_unit_zero (S := S8x256x5) (by funext a; fin_cases a <;> rfl : (![0, 0, 0] : Fin 3 → ℕ) = fun _ => 0), View.ld_unit_zero (S := S8x2048x5) (by funext a; fin_cases a <;> rfl : (![0, 0, 0] : Fin 3 → ℕ) = fun _ => 0)]

theorem out0_B_2_eq (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i) (x0 : Vec F S8x256x5 .f32) (x1 : Vec F S8x2048x5 .f32) (xs0 : Vec F S8x2048 .f32) :
    out0_B_2 (F := F) c i arg2 harg2 arg3 harg3 arg4 harg4 arg5 harg5 arg6 harg6 hc0 x0 x1 xs0 = k0_pay3 (k0_pay5 x0) (k0_pay6 x1) (k0_pay11 x0 x1) (k0_pay13 x0 x1) := by
  unfold out0_B_2
  rw [View.read_writes_eq_canon _ _ _ (cover0_B_2 c i arg2 harg2 arg3 harg3 arg4 harg4 arg5 harg5 arg6 harg6 hc0 x0 x1 xs0)]
  unfold kernelRun0_B
  dsimp only
  sl_unfold_words
  rw [View.canon_unit_zero (by funext a; fin_cases a <;> rfl : (![0, 0] : Fin 2 → ℕ) = fun _ => 0)]
  simp only [View.readAt_eq_ld, harg2.read_unread, harg3.read_unread, View.ld_unit_zero (S := S8x256x5) (by funext a; fin_cases a <;> rfl : (![0, 0, 0] : Fin 3 → ℕ) = fun _ => 0), View.ld_unit_zero (S := S8x2048x5) (by funext a; fin_cases a <;> rfl : (![0, 0, 0] : Fin 3 → ℕ) = fun _ => 0)]

/-! ## The accumulator at a later row tile -/

/-- What a later tile leaves in the accumulator, as the four stores' rectangles over the body's arithmetic of the
    inputs and of the slices of what the accumulator held. -/
theorem sout0_B_0_canon (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i) (x0 : Vec F S8x256x5 .f32) (x1 : Vec F S8x2048x5 .f32) (xs0 : Vec F S8x2048 .f32) :
    sout0_B_0 (F := F) c i arg2 harg2 arg3 harg3 arg4 harg4 arg5 harg5 arg6 harg6 hc0 x0 x1 xs0 = View.canon
      [⟨Rect.unit (s := S8x2048) ![0, 1536] S8x512.size inb_S8x2048_S8x512_0_1536, k0_pay4 (k0_pay5 x0) (k0_pay6 x1) (View.ld xs0 (Rect.unit (s := S8x2048) ![0, 1536] S8x512.size inb_S8x2048_S8x512_0_1536))⟩,
       ⟨Rect.unit (s := S8x2048) ![0, 1024] S8x512.size inb_S8x2048_S8x512_0_1024, k0_pay1 (k0_pay13 x0 x1) (View.ld xs0 (Rect.unit (s := S8x2048) ![0, 1024] S8x512.size inb_S8x2048_S8x512_0_1024))⟩,
       ⟨Rect.unit (s := S8x2048) ![0, 512] S8x512.size inb_S8x2048_S8x512_0_512, k0_pay12 x0 x1 (View.ld xs0 (Rect.unit (s := S8x2048) ![0, 512] S8x512.size inb_S8x2048_S8x512_0_512))⟩,
       ⟨Rect.unit (s := S8x2048) ![0, 0] S8x512.size inb_S8x2048_S8x512_0_0, k0_pay9 x0 x1 (View.ld xs0 (Rect.unit (s := S8x2048) ![0, 0] S8x512.size inb_S8x2048_S8x512_0_0))⟩] := by
  unfold sout0_B_0
  rw [View.read_writes_eq_canon _ _ _ (scover0_B_0 c i arg2 harg2 arg3 harg3 arg4 harg4 arg5 harg5 arg6 harg6 hc0 x0 x1 xs0)]
  unfold kernelRun0_B
  dsimp only
  sl_unfold_words
  simp only [View.readAt_eq_ld, harg2.read_unread, harg3.read_unread, harg6.read_unread, View.ld_unit_zero (S := S8x256x5) (by funext a; fin_cases a <;> rfl : (![0, 0, 0] : Fin 3 → ℕ) = fun _ => 0), View.ld_unit_zero (S := S8x2048x5) (by funext a; fin_cases a <;> rfl : (![0, 0, 0] : Fin 3 → ℕ) = fun _ => 0)]

/-! ## The accumulator at a first row tile -/

/-- At a first row tile, the accumulator's columns 1536 … 2047: the slice held the +inf fill. -/
theorem sout0_A_0_c1536 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i) (x0 : Vec F S8x256x5 .f32) (x1 : Vec F S8x2048x5 .f32) (b : Fin 8) (q : Fin 512) (j : Fin 2048) (hj : j.val = 1536 + q.val) :
    ∃ V : Vec F S8x512 .f32, V (ix2 b q) = k0_pay7 (F := F) (ix2 b j) ∧
      sout0_A_0 (F := F) c i arg2 harg2 arg3 harg3 arg4 harg4 arg5 harg5 arg6 harg6 hc0 x0 x1 (ix2 b j) = k0_pay4 (k0_pay5 x0) (k0_pay6 x1) V (ix2 b q) := by
  have hq := q.isLt
  refine ⟨?V, ?h1, ?h2⟩
  case h2 =>
    unfold sout0_A_0
    rw [View.read_writes_eq_canon _ _ _ (scover0_A_0 c i arg2 harg2 arg3 harg3 arg4 harg4 arg5 harg5 arg6 harg6 hc0 x0 x1)]
    unfold kernelRun0_A
    dsimp only
    unfold kernelRun0_A.sl.HS0_5
    refine (canon_hit 1536 inb_S8x2048_S8x512_0_1536 _ _ b q j hj).trans ?_
    simp only [kernelRun0_A.sl.r, kernelRun0_A.sl.r_1, kernelRun0_A.sl.r_3, View.readAt_eq_ld, harg2.read_unread, harg3.read_unread, View.ld_unit_zero (S := S8x256x5) (by funext a; fin_cases a <;> rfl : (![0, 0, 0] : Fin 3 → ℕ) = fun _ => 0), View.ld_unit_zero (S := S8x2048x5) (by funext a; fin_cases a <;> rfl : (![0, 0, 0] : Fin 3 → ℕ) = fun _ => 0)]
    try rfl
  case h1 =>
    unfold kernelRun0_A.sl.v43
    refine (readCov_cols _ _ 1536 inb_S8x2048_S8x512_0_1536 b q j hj).trans ?_
    unfold kernelRun0_A.sl.HS0_4
    refine (canon_skip 1024 inb_S8x2048_S8x512_0_1024 _ _ b _ (Or.inr (by omega))).trans ?_
    unfold kernelRun0_A.sl.HS0_3
    refine (canon_skip 512 inb_S8x2048_S8x512_0_512 _ _ b _ (Or.inr (by omega))).trans ?_
    unfold kernelRun0_A.sl.HS0_2
    refine (canon_skip 0 inb_S8x2048_S8x512_0_0 _ _ b _ (Or.inr (by omega))).trans ?_
    unfold kernelRun0_A.sl.HS0_1
    exact canon_fill _ _

/-- At a first row tile, the accumulator's columns 1024 … 1535: the slice held the +inf fill. -/
theorem sout0_A_0_c1024 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i) (x0 : Vec F S8x256x5 .f32) (x1 : Vec F S8x2048x5 .f32) (b : Fin 8) (q : Fin 512) (j : Fin 2048) (hj : j.val = 1024 + q.val) :
    ∃ V : Vec F S8x512 .f32, V (ix2 b q) = k0_pay7 (F := F) (ix2 b j) ∧
      sout0_A_0 (F := F) c i arg2 harg2 arg3 harg3 arg4 harg4 arg5 harg5 arg6 harg6 hc0 x0 x1 (ix2 b j) = k0_pay1 (k0_pay13 x0 x1) V (ix2 b q) := by
  have hq := q.isLt
  refine ⟨?V, ?h1, ?h2⟩
  case h2 =>
    unfold sout0_A_0
    rw [View.read_writes_eq_canon _ _ _ (scover0_A_0 c i arg2 harg2 arg3 harg3 arg4 harg4 arg5 harg5 arg6 harg6 hc0 x0 x1)]
    unfold kernelRun0_A
    dsimp only
    unfold kernelRun0_A.sl.HS0_5
    refine (canon_skip 1536 inb_S8x2048_S8x512_0_1536 _ _ b _ (Or.inl (by omega))).trans ?_
    unfold kernelRun0_A.sl.HS0_4
    refine (canon_hit 1024 inb_S8x2048_S8x512_0_1024 _ _ b q j hj).trans ?_
    simp only [kernelRun0_A.sl.r, kernelRun0_A.sl.r_1, kernelRun0_A.sl.r_3, View.readAt_eq_ld, harg2.read_unread, harg3.read_unread, View.ld_unit_zero (S := S8x256x5) (by funext a; fin_cases a <;> rfl : (![0, 0, 0] : Fin 3 → ℕ) = fun _ => 0), View.ld_unit_zero (S := S8x2048x5) (by funext a; fin_cases a <;> rfl : (![0, 0, 0] : Fin 3 → ℕ) = fun _ => 0)]
    try rfl
  case h1 =>
    unfold kernelRun0_A.sl.v33
    refine (readCov_cols _ _ 1024 inb_S8x2048_S8x512_0_1024 b q j hj).trans ?_
    unfold kernelRun0_A.sl.HS0_3
    refine (canon_skip 512 inb_S8x2048_S8x512_0_512 _ _ b _ (Or.inr (by omega))).trans ?_
    unfold kernelRun0_A.sl.HS0_2
    refine (canon_skip 0 inb_S8x2048_S8x512_0_0 _ _ b _ (Or.inr (by omega))).trans ?_
    unfold kernelRun0_A.sl.HS0_1
    exact canon_fill _ _

/-- At a first row tile, the accumulator's columns 512 … 1023: the slice held the +inf fill. -/
theorem sout0_A_0_c512 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i) (x0 : Vec F S8x256x5 .f32) (x1 : Vec F S8x2048x5 .f32) (b : Fin 8) (q : Fin 512) (j : Fin 2048) (hj : j.val = 512 + q.val) :
    ∃ V : Vec F S8x512 .f32, V (ix2 b q) = k0_pay7 (F := F) (ix2 b j) ∧
      sout0_A_0 (F := F) c i arg2 harg2 arg3 harg3 arg4 harg4 arg5 harg5 arg6 harg6 hc0 x0 x1 (ix2 b j) = k0_pay12 x0 x1 V (ix2 b q) := by
  have hq := q.isLt
  refine ⟨?V, ?h1, ?h2⟩
  case h2 =>
    unfold sout0_A_0
    rw [View.read_writes_eq_canon _ _ _ (scover0_A_0 c i arg2 harg2 arg3 harg3 arg4 harg4 arg5 harg5 arg6 harg6 hc0 x0 x1)]
    unfold kernelRun0_A
    dsimp only
    unfold kernelRun0_A.sl.HS0_5
    refine (canon_skip 1536 inb_S8x2048_S8x512_0_1536 _ _ b _ (Or.inl (by omega))).trans ?_
    unfold kernelRun0_A.sl.HS0_4
    refine (canon_skip 1024 inb_S8x2048_S8x512_0_1024 _ _ b _ (Or.inl (by omega))).trans ?_
    unfold kernelRun0_A.sl.HS0_3
    refine (canon_hit 512 inb_S8x2048_S8x512_0_512 _ _ b q j hj).trans ?_
    simp only [kernelRun0_A.sl.r, kernelRun0_A.sl.r_1, kernelRun0_A.sl.r_3, View.readAt_eq_ld, harg2.read_unread, harg3.read_unread, View.ld_unit_zero (S := S8x256x5) (by funext a; fin_cases a <;> rfl : (![0, 0, 0] : Fin 3 → ℕ) = fun _ => 0), View.ld_unit_zero (S := S8x2048x5) (by funext a; fin_cases a <;> rfl : (![0, 0, 0] : Fin 3 → ℕ) = fun _ => 0)]
    try rfl
  case h1 =>
    unfold kernelRun0_A.sl.v23
    refine (readCov_cols _ _ 512 inb_S8x2048_S8x512_0_512 b q j hj).trans ?_
    unfold kernelRun0_A.sl.HS0_2
    refine (canon_skip 0 inb_S8x2048_S8x512_0_0 _ _ b _ (Or.inr (by omega))).trans ?_
    unfold kernelRun0_A.sl.HS0_1
    exact canon_fill _ _

/-- At a first row tile, the accumulator's columns 0 … 511: the slice held the +inf fill. -/
theorem sout0_A_0_c0 (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i) (x0 : Vec F S8x256x5 .f32) (x1 : Vec F S8x2048x5 .f32) (b : Fin 8) (q : Fin 512) (j : Fin 2048) (hj : j.val = 0 + q.val) :
    ∃ V : Vec F S8x512 .f32, V (ix2 b q) = k0_pay7 (F := F) (ix2 b j) ∧
      sout0_A_0 (F := F) c i arg2 harg2 arg3 harg3 arg4 harg4 arg5 harg5 arg6 harg6 hc0 x0 x1 (ix2 b j) = k0_pay9 x0 x1 V (ix2 b q) := by
  have hq := q.isLt
  refine ⟨?V, ?h1, ?h2⟩
  case h2 =>
    unfold sout0_A_0
    rw [View.read_writes_eq_canon _ _ _ (scover0_A_0 c i arg2 harg2 arg3 harg3 arg4 harg4 arg5 harg5 arg6 harg6 hc0 x0 x1)]
    unfold kernelRun0_A
    dsimp only
    unfold kernelRun0_A.sl.HS0_5
    refine (canon_skip 1536 inb_S8x2048_S8x512_0_1536 _ _ b _ (Or.inl (by omega))).trans ?_
    unfold kernelRun0_A.sl.HS0_4
    refine (canon_skip 1024 inb_S8x2048_S8x512_0_1024 _ _ b _ (Or.inl (by omega))).trans ?_
    unfold kernelRun0_A.sl.HS0_3
    refine (canon_skip 512 inb_S8x2048_S8x512_0_512 _ _ b _ (Or.inl (by omega))).trans ?_
    unfold kernelRun0_A.sl.HS0_2
    refine (canon_hit 0 inb_S8x2048_S8x512_0_0 _ _ b q j hj).trans ?_
    simp only [kernelRun0_A.sl.r, kernelRun0_A.sl.r_1, kernelRun0_A.sl.r_3, View.readAt_eq_ld, harg2.read_unread, harg3.read_unread, View.ld_unit_zero (S := S8x256x5) (by funext a; fin_cases a <;> rfl : (![0, 0, 0] : Fin 3 → ℕ) = fun _ => 0), View.ld_unit_zero (S := S8x2048x5) (by funext a; fin_cases a <;> rfl : (![0, 0, 0] : Fin 3 → ℕ) = fun _ => 0)]
    try rfl
  case h1 =>
    unfold kernelRun0_A.sl.v13
    refine (readCov_cols _ _ 0 inb_S8x2048_S8x512_0_0 b q j hj).trans ?_
    unfold kernelRun0_A.sl.HS0_1
    exact canon_fill _ _

/-! ## The second output -/

/-- The second output is a copy of the accumulator as the body leaves it. -/
theorem out0_A_3_eq (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i) (x0 : Vec F S8x256x5 .f32) (x1 : Vec F S8x2048x5 .f32) :
    out0_A_3 (F := F) c i arg2 harg2 arg3 harg3 arg4 harg4 arg5 harg5 arg6 harg6 hc0 x0 x1 = sout0_A_0 (F := F) c i arg2 harg2 arg3 harg3 arg4 harg4 arg5 harg5 arg6 harg6 hc0 x0 x1 := by
  unfold out0_A_3 sout0_A_0
  rw [View.read_writes_eq_canon _ _ _ (cover0_A_3 c i arg2 harg2 arg3 harg3 arg4 harg4 arg5 harg5 arg6 harg6 hc0 x0 x1), View.read_writes_eq_canon _ _ _ (scover0_A_0 c i arg2 harg2 arg3 harg3 arg4 harg4 arg5 harg5 arg6 harg6 hc0 x0 x1)]
  unfold kernelRun0_A
  dsimp only
  rw [View.canon_unit_zero (by funext a; fin_cases a <;> rfl : (![0, 0] : Fin 2 → ℕ) = fun _ => 0)]
  unfold kernelRun0_A.sl.v49
  rw [View.readCov_eq_canon']
  exact View.ld_unit_zero (by funext a; fin_cases a <;> rfl : (![0, 0] : Fin 2 → ℕ) = fun _ => 0) _ (View.canon _)

/-- The second output is a copy of the accumulator as the body leaves it. -/
theorem out0_B_3_eq (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i) (x0 : Vec F S8x256x5 .f32) (x1 : Vec F S8x2048x5 .f32) (xs0 : Vec F S8x2048 .f32) :
    out0_B_3 (F := F) c i arg2 harg2 arg3 harg3 arg4 harg4 arg5 harg5 arg6 harg6 hc0 x0 x1 xs0 = sout0_B_0 (F := F) c i arg2 harg2 arg3 harg3 arg4 harg4 arg5 harg5 arg6 harg6 hc0 x0 x1 xs0 := by
  unfold out0_B_3 sout0_B_0
  rw [View.read_writes_eq_canon _ _ _ (cover0_B_3 c i arg2 harg2 arg3 harg3 arg4 harg4 arg5 harg5 arg6 harg6 hc0 x0 x1 xs0), View.read_writes_eq_canon _ _ _ (scover0_B_0 c i arg2 harg2 arg3 harg3 arg4 harg4 arg5 harg5 arg6 harg6 hc0 x0 x1 xs0)]
  unfold kernelRun0_B
  dsimp only
  rw [View.canon_unit_zero (by funext a; fin_cases a <;> rfl : (![0, 0] : Fin 2 → ℕ) = fun _ => 0)]
  unfold kernelRun0_B.sl.v49
  rw [View.readCov_eq_canon']
  exact View.ld_unit_zero (by funext a; fin_cases a <;> rfl : (![0, 0] : Fin 2 → ℕ) = fun _ => 0) _ (View.canon _)

end Cert.KernelIdeal.Region

end
-- ==== Proof.LibMinReduce.lean ====
/-
  Minimum reductions on the extended reals, by their universal property: a value is below a minimum exactly when it
  is below every element (and below the starting value). Stated for a vector minimum along one axis, for the host's
  minimum of a whole array down to a scalar, and joined by the fact that the square root is monotone, so that the
  square root of a least element is the least of the square roots.
-/
import Idealize.ShloMosaic.PureOps.Ideal
import Idealize.ShloMosaic.PureOps.Ideal.Laws
import Idealize.ShloMosaic.PureOps.Reduce
import Idealize.ShloMosaic.Lib.ValueIdx

noncomputable section

namespace Cert.LibMinReduce

open Idealize.ShloMosaic Idealize.ShloMosaic.ValueIdx

/-- The f32 pattern of +infinity is the top element. -/
theorem ofBits_inf : Ideal.ofBits .f32 0x7F800000#32 = (⊤ : EReal) := by
  simp [Ideal.ofBits, Ideal.ieee]

/-- The f32 pattern of 1.0 is one. -/
theorem ofBits_one : Ideal.ofBits .f32 0x3F800000#32 = (1 : EReal) := by
  simp [Ideal.ofBits, Ideal.ieee, -EReal.coe_mul]; norm_num

/-- The square root of the extended reals (bottom below zero) is monotone. -/
theorem sqrt_mono : Monotone Ideal.sqrt := by
  intro a b hab
  induction a using EReal.rec with
  | bot => exact bot_le
  | top =>
    have hb : b = ⊤ := top_le_iff.mp hab
    subst hb; exact le_rfl
  | coe r =>
    induction b using EReal.rec with
    | bot => exact absurd hab (by simp)
    | top => exact le_top
    | coe s =>
      have hrs : r ≤ s := EReal.coe_le_coe_iff.mp hab
      simp only [Ideal.sqrt_coe]
      split_ifs with h1 h2
      · exact le_rfl
      · exact bot_le
      · exfalso; linarith
      · exact EReal.coe_le_coe_iff.mpr (Real.sqrt_le_sqrt hrs)

/-- If `M` is the greatest lower bound of finitely many nonnegative values `d i` and `R` the greatest lower bound of
    their square roots, then `R` is the square root of `M` (clamped at zero, which changes nothing): the least value is
    attained, and the square root keeps order. -/
theorem sqrt_glb {ι : Type*} [Finite ι] [Nonempty ι] (d : ι → EReal) (hd : ∀ i, 0 ≤ d i) (M R : EReal)
    (hM : ∀ z, z ≤ M ↔ ∀ i, z ≤ d i) (hR : ∀ z, z ≤ R ↔ ∀ i, z ≤ Ideal.sqrt (d i)) :
    Ideal.sqrt (max M 0) = R := by
  have hM0 : 0 ≤ M := (hM 0).mpr hd
  rw [max_eq_left hM0]
  obtain ⟨i0, hi0⟩ := Finite.exists_min d
  have hMi : M = d i0 := le_antisymm ((hM M).mp le_rfl i0) ((hM _).mpr hi0)
  apply le_antisymm
  · exact (hR _).mpr fun i => sqrt_mono ((hM M).mp le_rfl i)
  · rw [hMi]; exact (hR R).mp le_rfl i0

/-- A vector minimum along one axis, from the accumulator's value: below it is below the accumulator and below every
    element of the reduced line. -/
theorem le_multiReduction_min {s t : Shape} {a : Fin s.rank} {φ : FTy} (src : FVec Ideal s φ) (acc : BitVec φ.bits)
    (h : s.Reduces [a] t) (hφ : FKind.Formats φ) (hacc : acc = FKind.minimumf.neutral φ hφ) (j : t.Idx) (z : EReal) :
    z ≤ multiReduction .minimumf [a] t src acc h hφ hacc j
      ↔ z ≤ Ideal.ofBits φ acc ∧ ∀ k : Fin (s.size a), z ≤ src (h.lift j k) := by
  classical
  rw [multiReduction_minimumf_eq_fold, h.fold_filter_drop_single]
  refine (Finset.le_fold_min (s := (Finset.univ : Finset (Fin (s.size a)))) (f := src ∘ h.lift j)
    (b := Ideal.ofBits φ acc) z).trans ?_
  simp only [Finset.mem_univ, true_implies, Function.comp_apply]

/-- Over row `r` of an `[R, W]` array, the index with column `k` inserted is `(r, k)`. -/
theorem lift_row {R W : ℕ} (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- Down the one column of an `[R, 1]` array, the index with row `k` inserted is `(k, 0)`. -/
theorem lift_col {R : ℕ} (h : (⟨2, ![R, 1]⟩ : Shape).Reduces [0] ⟨1, ![1]⟩) (j : (⟨1, ![1]⟩ : Shape).Idx) (k : Fin R) :
    h.lift j k = ix2 k (0 : Fin 1) := by
  funext c
  match c with
  | ⟨0, _⟩ => exact Fin.ext rfl
  | ⟨1, hc⟩ => exact Fin.ext (by
      have hlt : (h.lift j k ⟨1, hc⟩).val < 1 := (h.lift j k ⟨1, hc⟩).isLt
      show (h.lift j k ⟨1, hc⟩).val = 0
      omega)

/-- A row minimum of an `[R, W]` array from +infinity: below it is below every entry of the row. -/
theorem le_rowMin {R W : ℕ} (src : FVec Ideal ⟨2, ![R, W]⟩ .f32) (h : (⟨2, ![R, W]⟩ : Shape).Reduces [1] ⟨1, ![R]⟩)
    (hφ : FKind.Formats .f32) (hacc : (0x7F800000#32 : BitVec 32) = FKind.minimumf.neutral .f32 hφ) (r : Fin R) (z : EReal) :
    z ≤ multiReduction .minimumf [1] ⟨1, ![R]⟩ src 0x7F800000#32 h hφ hacc (ix1 r) ↔ ∀ p : Fin W, z ≤ src (ix2 r p) := by
  refine (le_multiReduction_min src _ h hφ hacc (ix1 r) z).trans ?_
  rw [ofBits_inf]
  constructor
  · intro hh p
    have := hh.2 p
    rwa [lift_row h r p] at this
  · intro hh
    exact ⟨le_top, fun k => by rw [lift_row h r k]; exact hh k⟩

/-- The minimum down the one column of an `[R, 1]` array from +infinity: below it is below every entry. -/
theorem le_colMin {R : ℕ} (src : FVec Ideal ⟨2, ![R, 1]⟩ .f32) (h : (⟨2, ![R, 1]⟩ : Shape).Reduces [0] ⟨1, ![1]⟩)
    (hφ : FKind.Formats .f32) (hacc : (0x7F800000#32 : BitVec 32) = FKind.minimumf.neutral .f32 hφ)
    (j : (⟨1, ![1]⟩ : Shape).Idx) (z : EReal) :
    z ≤ multiReduction .minimumf [0] ⟨1, ![1]⟩ src 0x7F800000#32 h hφ hacc j ↔ ∀ r : Fin R, z ≤ src (ix2 r (0 : Fin 1)) := by
  refine (le_multiReduction_min src _ h hφ hacc j z).trans ?_
  rw [ofBits_inf]
  constructor
  · intro hh r
    have := hh.2 r
    rwa [lift_col h j r] at this
  · intro hh
    exact ⟨le_top, fun k => by rw [lift_col h j k]; exact hh k⟩

/-- The host's minimum of a whole array down to a scalar, from an initial value: below it is below the initial value
    and below every element. -/
theorem le_hostReduce_min {s u : Shape} {axes : List (Fin s.rank)} (x : s.Idx → EReal) (init : u.Idx → EReal)
    (h : s.ReducesTo axes ⟨0, ![]⟩) (hu : 0 < u.numel) (j : (⟨0, ![]⟩ : Shape).Idx) (z : EReal) :
    z ≤ Host.reduce (FloatOps.minimumf (F := Ideal) (φ := .f32)) x init h hu j
      ↔ z ≤ init (Shape.Idx.first hu) ∧ ∀ i : s.Idx, z ≤ x i := by
  classical
  rw [Host.reduce_eq_fold]
  have hall : (Finset.univ.filter fun i : s.Idx => h.drop i = j) = Finset.univ :=
    Finset.filter_true_of_mem fun i _ => funext fun b => b.elim0
  rw [hall]
  refine (Finset.le_fold_min (s := (Finset.univ : Finset s.Idx)) (f := x)
    (b := init (Shape.Idx.first hu)) z).trans ?_
  simp only [Finset.mem_univ, true_implies]

end Cert.LibMinReduce

end
-- ==== Proof.BodyMath.lean ====
/-
  The arithmetic of one step of the nearest-neighbour search, read at an index on the extended reals.

  One step holds a tile of 256 augmented points of the first cloud for 8 batch entries, `v0`, and all 2048 augmented
  points of the second cloud for the same entries, `v2`; each point has five coordinates. The step forms, in four chunks
  of 512 columns, the table of five-term inner products `kd b r j = Σ k, v0 (b, r, k) · v2 (b, j, k)`; takes for each
  row `r` the least entry over all 2048 columns; and for each column `j` folds the least entry over the tile's 256 rows
  into a running value. Below: each of the four products at an index is the table entry; the row result is the greatest
  lower bound of the row; each column result is the smaller of the running value and the greatest lower bound of the
  column over the tile; and the value the running array starts from is the top element.
-/
import proofs.«112872_j39951785787527_2_alg».proof.Proof.Gen.KernelIdeal.Skeleton
import proofs.«112872_j39951785787527_2_alg».proof.Proof.LibMinReduce
import Idealize.ShloMosaic.PureOps.Ideal.Laws
import Idealize.ShloMosaic.Lib.ValueIdx
import Idealize.ShloMosaic.Lib.Pipeline.Value

noncomputable section

namespace Cert.Chamfer.Body

open Idealize.ShloMosaic Idealize.ShloMosaic.ValueIdx
open Cert.KernelIdeal Cert.KernelIdeal.Gen
open scoped BigOperators

variable [Cert.KernelIdeal.Facts]
open Cert.KernelIdeal.Facts₀ Cert.KernelIdeal.Facts

/-- The five-term inner product of point `r` of the tile and point `j` of the second cloud, in batch entry `b`. -/
def kd (v0 : Vec Ideal S8x256x5 .f32) (v2 : Vec Ideal S8x2048x5 .f32) (b : Fin 8) (r : Fin 256) (j : Fin 2048) : EReal :=
  ∑ k : Fin 5, v0 (ix3 b r k) * v2 (ix3 b j k)

/-- Column `q` of chunk 0. -/
abbrev j0 (q : Fin 512) : Fin 2048 := ⟨q.val, by have := q.isLt; omega⟩
/-- Column `q` of chunk 1. -/
abbrev j1 (q : Fin 512) : Fin 2048 := ⟨512 + q.val, by have := q.isLt; omega⟩
/-- Column `q` of chunk 2. -/
abbrev j2 (q : Fin 512) : Fin 2048 := ⟨1024 + q.val, by have := q.isLt; omega⟩
/-- Column `q` of chunk 3. -/
abbrev j3 (q : Fin 512) : Fin 2048 := ⟨1536 + q.val, by have := q.isLt; omega⟩

/-! ## The products -/

theorem lhs_0 (i : S8x256x512.Idx) (q : dot_S8x256x5_S8x512x5_S8x256x512_2_2_1_1_0_0.contr.Idx) : (dot_S8x256x5_S8x512x5_S8x256x512_2_2_1_1_0_0.lhsIdx i q 0).val = (i 0).val := by
  unfold DotDims.lhsIdx
  rw [dif_pos (show (0 : Fin S8x256x5.rank) ∈ dot_S8x256x5_S8x512x5_S8x256x512_2_2_1_1_0_0.lhsBatch by decide)]
  rfl
theorem lhs_1 (i : S8x256x512.Idx) (q : dot_S8x256x5_S8x512x5_S8x256x512_2_2_1_1_0_0.contr.Idx) : (dot_S8x256x5_S8x512x5_S8x256x512_2_2_1_1_0_0.lhsIdx i q 1).val = (i 1).val := by
  unfold DotDims.lhsIdx
  rw [dif_neg (show ¬(1 : Fin S8x256x5.rank) ∈ dot_S8x256x5_S8x512x5_S8x256x512_2_2_1_1_0_0.lhsBatch by decide), dif_pos (show (1 : Fin S8x256x5.rank) ∈ dot_S8x256x5_S8x512x5_S8x256x512_2_2_1_1_0_0.lhsNonContracting by decide)]
  rfl
theorem lhs_2 (i : S8x256x512.Idx) (q : dot_S8x256x5_S8x512x5_S8x256x512_2_2_1_1_0_0.contr.Idx) : (dot_S8x256x5_S8x512x5_S8x256x512_2_2_1_1_0_0.lhsIdx i q 2).val = (q ⟨0, by decide⟩).val :=
  dot_S8x256x5_S8x512x5_S8x256x512_2_2_1_1_0_0.lhsIdx_val_of_single rfl i q
theorem rhs_0 (i : S8x256x512.Idx) (q : dot_S8x256x5_S8x512x5_S8x256x512_2_2_1_1_0_0.contr.Idx) : (dot_S8x256x5_S8x512x5_S8x256x512_2_2_1_1_0_0.rhsIdx i q 0).val = (i 0).val := by
  unfold DotDims.rhsIdx
  rw [dif_pos (show (0 : Fin S8x512x5.rank) ∈ dot_S8x256x5_S8x512x5_S8x256x512_2_2_1_1_0_0.rhsBatch by decide)]
  rfl
theorem rhs_1 (i : S8x256x512.Idx) (q : dot_S8x256x5_S8x512x5_S8x256x512_2_2_1_1_0_0.contr.Idx) : (dot_S8x256x5_S8x512x5_S8x256x512_2_2_1_1_0_0.rhsIdx i q 1).val = (i 2).val := by
  unfold DotDims.rhsIdx
  rw [dif_neg (show ¬(1 : Fin S8x512x5.rank) ∈ dot_S8x256x5_S8x512x5_S8x256x512_2_2_1_1_0_0.rhsBatch by decide), dif_pos (show (1 : Fin S8x512x5.rank) ∈ dot_S8x256x5_S8x512x5_S8x256x512_2_2_1_1_0_0.rhsNonContracting by decide)]
  rfl
theorem rhs_2 (i : S8x256x512.Idx) (q : dot_S8x256x5_S8x512x5_S8x256x512_2_2_1_1_0_0.contr.Idx) : (dot_S8x256x5_S8x512x5_S8x256x512_2_2_1_1_0_0.rhsIdx i q 2).val = (q ⟨0, by decide⟩).val :=
  dot_S8x256x5_S8x512x5_S8x256x512_2_2_1_1_0_0.rhsIdx_val_of_single rfl i q

/-- The product into the zero array, at `(b, r, q)`: the sum over the five coordinates of the two points' products. -/
theorem matmul_at (lhs : FVec Ideal S8x256x5 .f32) (rhs : FVec Ideal S8x512x5 .f32) (b : Fin 8) (r : Fin 256) (q : Fin 512) :
    matmul (F := Ideal) dot_S8x256x5_S8x512x5_S8x256x512_2_2_1_1_0_0 none lhs rhs (constant (F := Ideal) S8x256x512 .f32 0x00000000#32) (ix3 b r q)
      = ∑ k : Fin 5, lhs (ix3 b r k) * rhs (ix3 b q k) := by
  refine (Ideal.matmul_constant_zero_apply dot_S8x256x5_S8x512x5_S8x256x512_2_2_1_1_0_0 none lhs rhs (ix3 b r q)).trans ?_
  rw [← Equiv.sum_comp (ValueIdx.contrEquiv1 dot_S8x256x5_S8x512x5_S8x256x512_2_2_1_1_0_0 5 rfl rfl).symm]
  refine Finset.sum_congr rfl fun k _ => ?_
  have hk := ValueIdx.contrEquiv1_symm_val dot_S8x256x5_S8x512x5_S8x256x512_2_2_1_1_0_0 5 rfl rfl k
  have el : dot_S8x256x5_S8x512x5_S8x256x512_2_2_1_1_0_0.lhsIdx (ix3 b r q) ((ValueIdx.contrEquiv1 dot_S8x256x5_S8x512x5_S8x256x512_2_2_1_1_0_0 5 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : dot_S8x256x5_S8x512x5_S8x256x512_2_2_1_1_0_0.rhsIdx (ix3 b r q) ((ValueIdx.contrEquiv1 dot_S8x256x5_S8x512x5_S8x256x512_2_2_1_1_0_0 5 rfl rfl).symm k) = ix3 b q k := funext fun a => Fin.ext (by
    match a with
    | ⟨0, _⟩ => exact rhs_0 _ _
    | ⟨1, _⟩ => exact rhs_1 _ _
    | ⟨2, _⟩ => exact (rhs_2 _ _).trans hk)
  rw [el, er]

/-- A chunk of 512 points of the second cloud starting at point `off`, read at `(b, q, k)`. -/
theorem slice_at (off : Nat) (v : FVec Ideal S8x2048x5 .f32) (h : S8x2048x5.Slices ![0, off, 0] S8x512x5)
    (b : Fin 8) (q : Fin 512) (k : Fin 5) (hlt : off + q.val < 2048) :
    extractStridedSlice S8x512x5 ![0, off, 0] v h (ix3 b q k) = v (ix3 b ⟨off + q.val, hlt⟩ k) := by
  refine extractStridedSlice_apply _ v h (ix3 b q k) (ix3 b ⟨off + q.val, hlt⟩ k) fun a => ?_
  match a with
  | ⟨0, _⟩ => exact (Nat.zero_add _).symm
  | ⟨1, _⟩ => rfl
  | ⟨2, _⟩ => exact (Nat.zero_add _).symm

/-- The tile's points re-read at their own shape are the points. -/
theorem pay5_eq (v0 : Vec Ideal S8x256x5 .f32) : k0_pay5 (F := Ideal) v0 = v0 := shapeCast_self v0 _

/-- The second cloud's points re-read at their own shape are the points. -/
theorem pay6_eq (v2 : Vec Ideal S8x2048x5 .f32) : k0_pay6 (F := Ideal) v2 = v2 := shapeCast_self v2 _

/-- The first chunk's product at `(b, r, q)` is the table entry at column `q`. -/
theorem pay8_at (v0 : Vec Ideal S8x256x5 .f32) (v2 : Vec Ideal S8x2048x5 .f32) (b : Fin 8) (r : Fin 256) (q : Fin 512) :
    k0_pay8 (F := Ideal) v0 v2 (ix3 b r q) = kd v0 v2 b r (j0 q) := by
  unfold k0_pay8
  rw [pay5_eq, pay6_eq]
  refine (matmul_at _ _ b r q).trans ?_
  unfold kd
  refine Finset.sum_congr rfl fun k _ => ?_
  rw [slice_at 0 v2 _ b q k (by have := q.isLt; omega)]
  exact congrArg (fun j : Fin 2048 => v0 (ix3 b r k) * v2 (ix3 b j k)) (Fin.ext (Nat.zero_add _))

/-- The second chunk's product at `(b, r, q)` is the table entry at column `512 + q`. -/
theorem pay10_at (v0 : Vec Ideal S8x256x5 .f32) (v2 : Vec Ideal S8x2048x5 .f32) (b : Fin 8) (r : Fin 256) (q : Fin 512) :
    k0_pay10 (F := Ideal) v0 v2 (ix3 b r q) = kd v0 v2 b r (j1 q) := by
  unfold k0_pay10
  rw [pay5_eq, pay6_eq]
  refine (matmul_at _ _ b r q).trans ?_
  unfold kd
  refine Finset.sum_congr rfl fun k _ => ?_
  rw [slice_at 512 v2 _ b q k (by have := q.isLt; omega)]

/-- The third chunk's product at `(b, r, q)` is the table entry at column `1024 + q`. -/
theorem pay13_at (v0 : Vec Ideal S8x256x5 .f32) (v2 : Vec Ideal S8x2048x5 .f32) (b : Fin 8) (r : Fin 256) (q : Fin 512) :
    k0_pay13 (F := Ideal) v0 v2 (ix3 b r q) = kd v0 v2 b r (j2 q) := by
  unfold k0_pay13
  rw [pay5_eq, pay6_eq]
  refine (matmul_at _ _ b r q).trans ?_
  unfold kd
  refine Finset.sum_congr rfl fun k _ => ?_
  rw [slice_at 1024 v2 _ b q k (by have := q.isLt; omega)]

/-- The fourth chunk's product at `(b, r, q)` is the table entry at column `1536 + q`. -/
theorem pay2_at (v0 : Vec Ideal S8x256x5 .f32) (v2 : Vec Ideal S8x2048x5 .f32) (b : Fin 8) (r : Fin 256) (q : Fin 512) :
    k0_pay2 (F := Ideal) (k0_pay5 v0) (k0_pay6 v2) (ix3 b r q) = kd v0 v2 b r (j3 q) := by
  unfold k0_pay2
  rw [pay5_eq, pay6_eq]
  refine (matmul_at _ _ b r q).trans ?_
  unfold kd
  refine Finset.sum_congr rfl fun k _ => ?_
  rw [slice_at 1536 v2 _ b q k (by have := q.isLt; omega)]

/-! ## Minima along one axis of the table -/

/-- Over `(b, r)` of an `[8, 256, 512]` array, the index with column `k` inserted is `(b, r, k)`. -/
theorem lift_last (h : S8x256x512.Reduces [2] S8x256) (b : Fin 8) (r : Fin 256) (k : Fin 512) :
    h.lift (ix2 b r) k = ix3 b r k := by
  funext c
  match c with
  | ⟨0, _⟩ => exact Fin.ext rfl
  | ⟨1, _⟩ => exact Fin.ext rfl
  | ⟨2, _⟩ => exact Fin.ext rfl

/-- Over `(b, q)` of an `[8, 256, 512]` array, the index with row `k` inserted is `(b, k, q)`. -/
theorem lift_mid (h : S8x256x512.Reduces [1] S8x512) (b : Fin 8) (q : Fin 512) (k : Fin 256) :
    h.lift (ix2 b q) k = ix3 b k q := by
  funext c
  match c with
  | ⟨0, _⟩ => exact Fin.ext rfl
  | ⟨1, _⟩ => exact Fin.ext rfl
  | ⟨2, _⟩ => exact Fin.ext rfl

/-- The least entry of row `(b, r)` from the top element: below it is below every entry of the row. -/
theorem le_rowMin3 (m : FVec Ideal S8x256x512 .f32) (h : S8x256x512.Reduces [2] S8x256)
    (hφ : FKind.Formats .f32) (hacc : (0x7F800000#32 : BitVec 32) = FKind.minimumf.neutral .f32 hφ)
    (b : Fin 8) (r : Fin 256) (z : EReal) :
    z ≤ multiReduction (F := Ideal) .minimumf [2] S8x256 m 0x7F800000#32 h hφ hacc (ix2 b r)
      ↔ ∀ q : Fin 512, z ≤ m (ix3 b r q) := by
  refine (Cert.LibMinReduce.le_multiReduction_min m _ h hφ hacc (ix2 b r) z).trans ?_
  rw [Cert.LibMinReduce.ofBits_inf]
  constructor
  · intro hh q
    have := hh.2 q
    rwa [lift_last h b r q] at this
  · intro hh
    exact ⟨le_top, fun k => by rw [lift_last h b r k]; exact hh k⟩

/-- The least entry of column `(b, q)` over the 256 rows from the top element: below it is below every entry of the
    column. -/
theorem le_colMin3 (m : FVec Ideal S8x256x512 .f32) (h : S8x256x512.Reduces [1] S8x512)
    (hφ : FKind.Formats .f32) (hacc : (0x7F800000#32 : BitVec 32) = FKind.minimumf.neutral .f32 hφ)
    (b : Fin 8) (q : Fin 512) (z : EReal) :
    z ≤ multiReduction (F := Ideal) .minimumf [1] S8x512 m 0x7F800000#32 h hφ hacc (ix2 b q)
      ↔ ∀ r : Fin 256, z ≤ m (ix3 b r q) := by
  refine (Cert.LibMinReduce.le_multiReduction_min m _ h hφ hacc (ix2 b q) z).trans ?_
  rw [Cert.LibMinReduce.ofBits_inf]
  constructor
  · intro hh r
    have := hh.2 r
    rwa [lift_mid h b q r] at this
  · intro hh
    exact ⟨le_top, fun k => by rw [lift_mid h b q k]; exact hh k⟩

/-- The column minimum is the greatest lower bound of the column over the tile. -/
theorem colMin3_eq (m : FVec Ideal S8x256x512 .f32) (h : S8x256x512.Reduces [1] S8x512)
    (hφ : FKind.Formats .f32) (hacc : (0x7F800000#32 : BitVec 32) = FKind.minimumf.neutral .f32 hφ)
    (b : Fin 8) (q : Fin 512) :
    multiReduction (F := Ideal) .minimumf [1] S8x512 m 0x7F800000#32 h hφ hacc (ix2 b q) = ⨅ r : Fin 256, m (ix3 b r q) :=
  eq_of_forall_le_iff fun z => (le_colMin3 m h hφ hacc b q z).trans le_iInf_iff.symm

/-- A statement about all 2048 columns is the four statements about the columns of each chunk. -/
theorem forall_cols (P : Fin 2048 → Prop) :
    (∀ j, P j) ↔ ((∀ q, P (j0 q)) ∧ (∀ q, P (j1 q)) ∧ (∀ q, P (j2 q)) ∧ (∀ q, P (j3 q))) := by
  constructor
  · intro h
    exact ⟨fun q => h _, fun q => h _, fun q => h _, fun q => h _⟩
  · rintro ⟨h0, h1, h2, h3⟩ ⟨n, hn⟩
    by_cases c0 : n < 512
    · exact h0 ⟨n, c0⟩
    by_cases c1 : n < 1024
    · have e : j1 ⟨n - 512, by omega⟩ = ⟨n, hn⟩ := Fin.ext (by show 512 + (n - 512) = n; omega)
      exact e ▸ h1 ⟨n - 512, by omega⟩
    by_cases c2 : n < 1536
    · have e : j2 ⟨n - 1024, by omega⟩ = ⟨n, hn⟩ := Fin.ext (by show 1024 + (n - 1024) = n; omega)
      exact e ▸ h2 ⟨n - 1024, by omega⟩
    · have e : j3 ⟨n - 1536, by omega⟩ = ⟨n, hn⟩ := Fin.ext (by show 1536 + (n - 1536) = n; omega)
      exact e ▸ h3 ⟨n - 1536, by omega⟩

/-! ## The row result -/

/-- The row minimum is the greatest lower bound of the row. -/
theorem rowMin3_eq (m : FVec Ideal S8x256x512 .f32) (h : S8x256x512.Reduces [2] S8x256)
    (hφ : FKind.Formats .f32) (hacc : (0x7F800000#32 : BitVec 32) = FKind.minimumf.neutral .f32 hφ)
    (b : Fin 8) (r : Fin 256) :
    multiReduction (F := Ideal) .minimumf [2] S8x256 m 0x7F800000#32 h hφ hacc (ix2 b r) = ⨅ q : Fin 512, m (ix3 b r q) :=
  eq_of_forall_le_iff fun z => (le_rowMin3 m h hφ hacc b r z).trans le_iInf_iff.symm

/-- The row minimum of a chunk's product is the greatest lower bound of the chunk's part of the row of the table. -/
theorem rowMin_chunk (m : FVec Ideal S8x256x512 .f32) (c : Fin 512 → Fin 2048)
    (v0 : Vec Ideal S8x256x5 .f32) (v2 : Vec Ideal S8x2048x5 .f32)
    (hm : ∀ (b : Fin 8) (r : Fin 256) (q : Fin 512), m (ix3 b r q) = kd v0 v2 b r (c q))
    (h : S8x256x512.Reduces [2] S8x256)
    (hφ : FKind.Formats .f32) (hacc : (0x7F800000#32 : BitVec 32) = FKind.minimumf.neutral .f32 hφ)
    (b : Fin 8) (r : Fin 256) :
    multiReduction (F := Ideal) .minimumf [2] S8x256 m 0x7F800000#32 h hφ hacc (ix2 b r)
      = ⨅ q : Fin 512, kd v0 v2 b r (c q) :=
  (rowMin3_eq m h hφ hacc b r).trans (iInf_congr fun q => hm b r q)

/-- The greatest lower bound over all 2048 columns is the least of the top element and the four chunks' greatest lower
    bounds, taken in the order the step takes them. -/
theorem iInf_cols (f : Fin 2048 → EReal) :
    ⨅ j, f j = min (min (min (min ⊤ (⨅ q, f (j0 q))) (⨅ q, f (j1 q))) (⨅ q, f (j2 q))) (⨅ q, f (j3 q)) := by
  refine eq_of_forall_le_iff fun z => ?_
  rw [le_iInf_iff, forall_cols (fun j => z ≤ f j)]
  simp only [le_min_iff, le_iInf_iff, le_top, true_and, and_assoc]

/-- The running row value after the first two chunks. -/
theorem pay11_at (v0 : Vec Ideal S8x256x5 .f32) (v2 : Vec Ideal S8x2048x5 .f32) (b : Fin 8) (r : Fin 256) :
    k0_pay11 (F := Ideal) v0 v2 (ix2 b r)
      = min (min ⊤ (⨅ q : Fin 512, kd v0 v2 b r (j0 q))) (⨅ q : Fin 512, kd v0 v2 b r (j1 q)) := by
  unfold k0_pay11
  refine (minimumf_apply _ _ _).trans ?_
  refine congrArg₂ min ?_ (rowMin_chunk (k0_pay10 (F := Ideal) v0 v2) j1 v0 v2 (pay10_at v0 v2) _ _ _ b r)
  refine (minimumf_apply _ _ _).trans ?_
  exact congrArg₂ min Cert.LibMinReduce.ofBits_inf
    (rowMin_chunk (k0_pay8 (F := Ideal) v0 v2) j0 v0 v2 (pay8_at v0 v2) _ _ _ b r)

/-- The row result: the least of the top element and the four chunks' row minima is the greatest lower bound of the
    whole row of the table. -/
theorem pay3_at (v0 : Vec Ideal S8x256x5 .f32) (v2 : Vec Ideal S8x2048x5 .f32) (b : Fin 8) (r : Fin 256) :
    k0_pay3 (F := Ideal) (k0_pay5 v0) (k0_pay6 v2) (k0_pay11 v0 v2) (k0_pay13 v0 v2) (ix2 b r)
      = ⨅ j : Fin 2048, kd v0 v2 b r j := by
  refine Eq.trans ?_ (iInf_cols (fun j => kd v0 v2 b r j)).symm
  unfold k0_pay3
  refine (minimumf_apply _ _ _).trans ?_
  refine congrArg₂ min ?_
    (rowMin_chunk (k0_pay2 (F := Ideal) (k0_pay5 v0) (k0_pay6 v2)) j3 v0 v2 (pay2_at v0 v2) _ _ _ b r)
  refine (minimumf_apply _ _ _).trans ?_
  exact congrArg₂ min (pay11_at v0 v2 b r)
    (rowMin_chunk (k0_pay13 (F := Ideal) v0 v2) j2 v0 v2 (pay13_at v0 v2) _ _ _ b r)

/-! ## The column results -/

/-- The column minimum of a chunk's product is the greatest lower bound of the chunk's column of the table. -/
theorem colMin_chunk (m : FVec Ideal S8x256x512 .f32) (c : Fin 512 → Fin 2048)
    (v0 : Vec Ideal S8x256x5 .f32) (v2 : Vec Ideal S8x2048x5 .f32)
    (hm : ∀ (b : Fin 8) (r : Fin 256) (q : Fin 512), m (ix3 b r q) = kd v0 v2 b r (c q))
    (h : S8x256x512.Reduces [1] S8x512)
    (hφ : FKind.Formats .f32) (hacc : (0x7F800000#32 : BitVec 32) = FKind.minimumf.neutral .f32 hφ)
    (b : Fin 8) (q : Fin 512) :
    multiReduction (F := Ideal) .minimumf [1] S8x512 m 0x7F800000#32 h hφ hacc (ix2 b q)
      = ⨅ r : Fin 256, kd v0 v2 b r (c q) :=
  (colMin3_eq m h hφ hacc b q).trans (iInf_congr fun r => hm b r q)

/-- The first chunk's column result: the smaller of the running value and the column's greatest lower bound. -/
theorem pay9_at (v0 : Vec Ideal S8x256x5 .f32) (v2 : Vec Ideal S8x2048x5 .f32) (v13 : Vec Ideal S8x512 .f32)
    (b : Fin 8) (q : Fin 512) :
    k0_pay9 (F := Ideal) v0 v2 v13 (ix2 b q) = min (v13 (ix2 b q)) (⨅ r : Fin 256, kd v0 v2 b r (j0 q)) := by
  unfold k0_pay9
  refine (congrFun (shapeCast_self _ _) _).trans ?_
  refine (minimumf_apply _ _ _).trans ?_
  exact congrArg (min (v13 (ix2 b q))) (colMin_chunk (k0_pay8 (F := Ideal) v0 v2) j0 v0 v2 (pay8_at v0 v2) _ _ _ b q)

/-- The second chunk's column result. -/
theorem pay12_at (v0 : Vec Ideal S8x256x5 .f32) (v2 : Vec Ideal S8x2048x5 .f32) (v23 : Vec Ideal S8x512 .f32)
    (b : Fin 8) (q : Fin 512) :
    k0_pay12 (F := Ideal) v0 v2 v23 (ix2 b q) = min (v23 (ix2 b q)) (⨅ r : Fin 256, kd v0 v2 b r (j1 q)) := by
  unfold k0_pay12
  refine (congrFun (shapeCast_self _ _) _).trans ?_
  refine (minimumf_apply _ _ _).trans ?_
  exact congrArg (min (v23 (ix2 b q))) (colMin_chunk (k0_pay10 (F := Ideal) v0 v2) j1 v0 v2 (pay10_at v0 v2) _ _ _ b q)

/-- The third chunk's column result. -/
theorem pay1_at (v0 : Vec Ideal S8x256x5 .f32) (v2 : Vec Ideal S8x2048x5 .f32) (v33 : Vec Ideal S8x512 .f32)
    (b : Fin 8) (q : Fin 512) :
    k0_pay1 (F := Ideal) (k0_pay13 v0 v2) v33 (ix2 b q) = min (v33 (ix2 b q)) (⨅ r : Fin 256, kd v0 v2 b r (j2 q)) := by
  unfold k0_pay1
  refine (congrFun (shapeCast_self _ _) _).trans ?_
  refine (minimumf_apply _ _ _).trans ?_
  exact congrArg (min (v33 (ix2 b q))) (colMin_chunk (k0_pay13 (F := Ideal) v0 v2) j2 v0 v2 (pay13_at v0 v2) _ _ _ b q)

/-- The fourth chunk's column result. -/
theorem pay4_at (v0 : Vec Ideal S8x256x5 .f32) (v2 : Vec Ideal S8x2048x5 .f32) (v43 : Vec Ideal S8x512 .f32)
    (b : Fin 8) (q : Fin 512) :
    k0_pay4 (F := Ideal) (k0_pay5 v0) (k0_pay6 v2) v43 (ix2 b q) = min (v43 (ix2 b q)) (⨅ r : Fin 256, kd v0 v2 b r (j3 q)) := by
  unfold k0_pay4
  refine (congrFun (shapeCast_self _ _) _).trans ?_
  refine (minimumf_apply _ _ _).trans ?_
  exact congrArg (min (v43 (ix2 b q))) (colMin_chunk (k0_pay2 (F := Ideal) (k0_pay5 v0) (k0_pay6 v2)) j3 v0 v2 (pay2_at v0 v2) _ _ _ b q)

/-! ## The starting value of the running array -/

/-- The array the running values are reset to holds the top element everywhere. -/
theorem pay7_eq : k0_pay7 (F := Ideal) = fun _ => (⊤ : EReal) :=
  (shapeCast_self _ _).trans (funext fun _ => Cert.LibMinReduce.ofBits_inf)

end Cert.Chamfer.Body

end
-- ==== Proof.Spec.lean ====
/-
  The mathematics both programs compute, on the extended reals.

  Two clouds of points in three dimensions per batch entry: `x b i` (2048 points, 16 batches) and
  `y b j`. The squared distance between point `i` of the first cloud and point `j` of the second is
  written the way the plain program writes it: |x|² + |y|² − 2·⟨x, y⟩. The nearest-neighbour distance
  of each point of one cloud to the other cloud is the greatest lower bound of a line of that
  three-index table; the loss is a mean of the second nearest-neighbour array weighted by a mask, plus
  the mean of the first, plus the mean of the squares of a fourth array.
-/
import Idealize.ShloMosaic.PureOps.Ideal
import Idealize.ShloMosaic.PureOps
import Idealize.ShloMosaic.Lib.ValueIdx

noncomputable section

namespace Cert.Chamfer

open Idealize.ShloMosaic Idealize.ShloMosaic.ValueIdx
open scoped BigOperators

/-- A cloud array: 16 batches of 2048 points with 3 coordinates. -/
abbrev Pts : Shape := ⟨3, ![16, 2048, 3]⟩
/-- One number per point of a cloud. -/
abbrev Mat : Shape := ⟨2, ![16, 2048]⟩
/-- The mask as it is given. -/
abbrev MaskS : Shape := ⟨5, ![4, 4, 2, 32, 32]⟩
/-- A single number. -/
abbrev Sc : Shape := ⟨0, ![]⟩

/-- The squared length of point `i` of batch `b`. -/
def sq (x : FVec Ideal Pts .f32) (b : Fin 16) (i : Fin 2048) : EReal :=
  ∑ d : Fin 3, x (ix3 b i d) * x (ix3 b i d)

/-- The inner product of point `i` of `x` and point `j` of `y`, in batch `b`. -/
def dot3 (x y : FVec Ideal Pts .f32) (b : Fin 16) (i j : Fin 2048) : EReal :=
  ∑ d : Fin 3, x (ix3 b i d) * y (ix3 b j d)

/-- The squared distance, as |x|² + |y|² − 2·⟨x, y⟩. -/
def dist (x y : FVec Ideal Pts .f32) (b : Fin 16) (i j : Fin 2048) : EReal :=
  (sq x b i + sq y b j) - (2 : EReal) * dot3 x y b i j

/-- For each point of `x`, the squared distance to the nearest point of `y`. -/
def nearX (x y : FVec Ideal Pts .f32) : FVec Ideal Mat .f32 :=
  fun p => ⨅ j : Fin 2048, dist x y (p 0) (p 1) j

/-- For each point of `y`, the squared distance to the nearest point of `x`. -/
def nearY (x y : FVec Ideal Pts .f32) : FVec Ideal Mat .f32 :=
  fun p => ⨅ i : Fin 2048, dist x y (p 0) i (p 1)

/-- The loss from the two nearest-neighbour arrays, the mask and the fourth array: the three means added,
    spelt with the host's operations (the sums start from the zero word, the counts are the words of
    32768 and 98304). The shape facts are hypotheses so that either program's proofs of them fit. -/
def loss (hr2 : Mat.ReducesTo [0, 1] Sc) (hr3 : Pts.ReducesTo [0, 1, 2] Sc) (h0 : 0 < Sc.numel)
    (hsc : MaskS.ShapeCasts Mat)
    (cx cy : FVec Ideal Mat .f32) (mask : FVec Ideal MaskS .f32) (dw : FVec Ideal Pts .f32) : FVec Ideal Sc .f32 :=
  addf (F := Ideal)
    (addf (F := Ideal)
      (Host.divf (F := Ideal)
        (Host.reduceAdd (F := Ideal) (mulf (F := Ideal) cy (shapeCast Mat mask hsc)) (constant (F := Ideal) Sc .f32 0x00000000#32) hr2 h0)
        (constant (F := Ideal) Sc .f32 0x47000000#32))
      (Host.divf (F := Ideal)
        (Host.reduceAdd (F := Ideal) cx (constant (F := Ideal) Sc .f32 0x00000000#32) hr2 h0)
        (constant (F := Ideal) Sc .f32 0x47000000#32)))
    (Host.divf (F := Ideal)
      (Host.reduceAdd (F := Ideal) (mulf (F := Ideal) dw dw) (constant (F := Ideal) Sc .f32 0x00000000#32) hr3 h0)
      (constant (F := Ideal) Sc .f32 0x47C00000#32))

end Cert.Chamfer

end
-- ==== Proof.AugMath.lean ====
/-
  The two augmented point arrays the host builds in front of the tiled search, read entry by entry,
  and the identity that makes their five-term inner product the squared distance.

  For a point a = (a0, a1, a2) of the first cloud and b = (b0, b1, b2) of the second, the host forms
  a' = (-2 a0, -2 a1, -2 a2, |a|², 1) and b' = (b0, b1, b2, 1, |b|²). Then
  ⟨a', b'⟩ = |a|² + |b|² - 2 ⟨a, b⟩ whenever every coordinate is a real number (on the extended
  reals the two sides can differ when an infinity meets a zero or an opposite infinity).
-/
import proofs.«112872_j39951785787527_2_alg».proof.Proof.Spec
import proofs.«112872_j39951785787527_2_alg».proof.Proof.Gen.KernelIdeal
import Idealize.ShloMosaic.PureOps.Ideal.Laws
import Idealize.ShloMosaic.Lib.ValueIdx
import Idealize.ShloMosaic.Lib.Pipeline.Value

noncomputable section

namespace Cert.Chamfer.Aug

open Idealize.ShloMosaic Idealize.ShloMosaic.ValueIdx Cert.KernelIdeal
open scoped BigOperators

/-- An array is real when every entry is a real number (neither infinity). -/
def IsReal (x : FVec Ideal ⟨3, ![16, 2048, 3]⟩ .f32) : Prop := ∀ p, ∃ r : ℝ, x p = (r : EReal)

variable [Cert.KernelIdeal.Facts]
open Cert.KernelIdeal.Facts₀

/-! ## The two arrays, as the host composes them -/

/-- The first cloud augmented: (-2)·x, then |x|², then 1, along the last axis. -/
def xAug (x1 : FVec Ideal S16x2048x3 .f32) : FVec Ideal S16x2048x5 .f32 :=
  concatenate S16x2048x5 2
    [⟨S16x2048x3, mulf (broadcastInDim S16x2048x3 ![] bcast_S_S16x2048x3 (constant (F := Ideal) S_ .f32 0xC0000000#32)) x1⟩,
     ⟨S16x2048x1, broadcastInDim S16x2048x1 ![0, 1] bcast_S16x2048_S16x2048x1_0_1
        (Host.reduceAdd (F := Ideal) (mulf x1 x1) (constant (F := Ideal) S_ .f32 0x00000000#32) reducesTo_S16x2048x3_S16x2048_d2 h_S_)⟩,
     ⟨S16x2048x1, broadcastInDim S16x2048x1 ![] bcast_S_S16x2048x1 (constant (F := Ideal) S_ .f32 0x3F800000#32)⟩]
    concatenates_S16x2048x3_S16x2048x1_S16x2048x1_S16x2048x5_d2

/-- The second cloud augmented: y, then 1, then |y|², along the last axis. -/
def yAug (x0 : FVec Ideal S16x2048x3 .f32) : FVec Ideal S16x2048x5 .f32 :=
  concatenate S16x2048x5 2
    [⟨S16x2048x3, x0⟩,
     ⟨S16x2048x1, broadcastInDim S16x2048x1 ![] bcast_S_S16x2048x1 (constant (F := Ideal) S_ .f32 0x3F800000#32)⟩,
     ⟨S16x2048x1, broadcastInDim S16x2048x1 ![0, 1] bcast_S16x2048_S16x2048x1_0_1
        (Host.reduceAdd (F := Ideal) (mulf x0 x0) (constant (F := Ideal) S_ .f32 0x00000000#32) reducesTo_S16x2048x3_S16x2048_d2 h_S_)⟩]
    concatenates_S16x2048x3_S16x2048x1_S16x2048x1_S16x2048x5_d2

/-! ## The three constant words -/

theorem ofBits_one : Ideal.ofBits .f32 0x3F800000#32 = 1 := by
  simp [Ideal.ofBits, Ideal.ieee, -EReal.coe_mul]; norm_num

theorem ofBits_neg_two : Ideal.ofBits .f32 0xC0000000#32 = (-2 : EReal) := by
  simp [Ideal.ofBits, Ideal.ieee, -EReal.coe_mul]
  norm_num
  rfl

/-! ## The arrays at an index -/

/-- The host's sum of squares over the last axis is the squared length. -/
theorem sumsq_apply (x : FVec Ideal S16x2048x3 .f32) (b : Fin 16) (i : Fin 2048) :
    Host.reduceAdd (F := Ideal) (mulf x x) (constant (F := Ideal) S_ .f32 0x00000000#32)
        reducesTo_S16x2048x3_S16x2048_d2 h_S_ (ix2 b i)
      = Cert.Chamfer.sq x b i := by
  simp only [Host.reduceAdd, Ideal.hostReduceAdd_def]
  rw [Ideal.hostReduceAdd_single reducesTo_S16x2048x3_S16x2048_d2 (by decide)]
  show Ideal.ofBits .f32 0x00000000#32 + _ = _
  rw [Ideal.ofBits_zero_f32, zero_add]
  unfold Cert.Chamfer.sq
  refine Finset.sum_congr rfl fun k _ => ?_
  refine congrArg (fun p => x p * x p) (funext fun a => Fin.ext ?_)
  match a with
  | ⟨0, _⟩ => rfl
  | ⟨1, _⟩ => rfl
  | ⟨2, _⟩ => rfl

/-- The first three entries of an augmented point of the first cloud: the point's, times -2. -/
theorem xAug_lo (x1 : FVec Ideal S16x2048x3 .f32) (b : Fin 16) (i : Fin 2048) (k : Fin 3) (k5 : Fin 5)
    (hk : k5.val = k.val) : xAug x1 (ix3 b i k5) = (-2 : EReal) * x1 (ix3 b i k) := by
  unfold xAug
  refine (concatenate_apply_piece (α := EReal) _ _ _ (ix3 b i k5) 0 (by show (0 : Nat) < 3; omega) S16x2048x3 _ rfl rfl 0 rfl
    (ix3 b i k) ?_ ?_).trans ?_
  · intro a ha
    match a with
    | ⟨0, _⟩ => rfl
    | ⟨1, _⟩ => rfl
    | ⟨2, _⟩ => exact absurd rfl ha
  · show 0 + k.val = k5.val
    omega
  · show Ideal.ofBits .f32 0xC0000000#32 * x1 (ix3 b i k) = _
    rw [ofBits_neg_two]

/-- The fourth entry of an augmented point of the first cloud: its squared length. -/
theorem xAug_3 (x1 : FVec Ideal S16x2048x3 .f32) (b : Fin 16) (i : Fin 2048) :
    xAug x1 (ix3 b i (3 : Fin 5)) = Cert.Chamfer.sq x1 b i := by
  unfold xAug
  refine (concatenate_apply_piece (α := EReal) _ _ _ (ix3 b i (3 : Fin 5)) 1 (by show (1 : Nat) < 3; omega) S16x2048x1 _ rfl rfl 3 rfl
    (ix3 b i (0 : Fin 1)) ?_ ?_).trans ?_
  · intro a ha
    match a with
    | ⟨0, _⟩ => rfl
    | ⟨1, _⟩ => rfl
    | ⟨2, _⟩ => exact absurd rfl ha
  · rfl
  · rw [broadcastInDim_apply _ _ _ _ (ix2 b i) (fun a => by match a with | ⟨0, _⟩ => rfl | ⟨1, _⟩ => rfl)]
    exact sumsq_apply x1 b i

/-- The fifth entry of an augmented point of the first cloud: one. -/
theorem xAug_4 (x1 : FVec Ideal S16x2048x3 .f32) (b : Fin 16) (i : Fin 2048) :
    xAug x1 (ix3 b i (4 : Fin 5)) = 1 := by
  unfold xAug
  refine (concatenate_apply_piece (α := EReal) _ _ _ (ix3 b i (4 : Fin 5)) 2 (by show (2 : Nat) < 3; omega) S16x2048x1 _ rfl rfl 4 rfl
    (ix3 b i (0 : Fin 1)) ?_ ?_).trans ?_
  · intro a ha
    match a with
    | ⟨0, _⟩ => rfl
    | ⟨1, _⟩ => rfl
    | ⟨2, _⟩ => exact absurd rfl ha
  · rfl
  · show Ideal.ofBits .f32 0x3F800000#32 = 1
    exact ofBits_one

/-- The first three entries of an augmented point of the second cloud: the point's own. -/
theorem yAug_lo (x0 : FVec Ideal S16x2048x3 .f32) (b : Fin 16) (j : Fin 2048) (k : Fin 3) (k5 : Fin 5)
    (hk : k5.val = k.val) : yAug x0 (ix3 b j k5) = x0 (ix3 b j k) := by
  unfold yAug
  refine concatenate_apply_piece (α := EReal) _ _ _ (ix3 b j k5) 0 (by show (0 : Nat) < 3; omega) S16x2048x3 _ rfl rfl 0 rfl
    (ix3 b j k) ?_ ?_
  · intro a ha
    match a with
    | ⟨0, _⟩ => rfl
    | ⟨1, _⟩ => rfl
    | ⟨2, _⟩ => exact absurd rfl ha
  · show 0 + k.val = k5.val
    omega

/-- The fourth entry of an augmented point of the second cloud: one. -/
theorem yAug_3 (x0 : FVec Ideal S16x2048x3 .f32) (b : Fin 16) (j : Fin 2048) :
    yAug x0 (ix3 b j (3 : Fin 5)) = 1 := by
  unfold yAug
  refine (concatenate_apply_piece (α := EReal) _ _ _ (ix3 b j (3 : Fin 5)) 1 (by show (1 : Nat) < 3; omega) S16x2048x1 _ rfl rfl 3 rfl
    (ix3 b j (0 : Fin 1)) ?_ ?_).trans ?_
  · intro a ha
    match a with
    | ⟨0, _⟩ => rfl
    | ⟨1, _⟩ => rfl
    | ⟨2, _⟩ => exact absurd rfl ha
  · rfl
  · show Ideal.ofBits .f32 0x3F800000#32 = 1
    exact ofBits_one

/-- The fifth entry of an augmented point of the second cloud: its squared length. -/
theorem yAug_4 (x0 : FVec Ideal S16x2048x3 .f32) (b : Fin 16) (j : Fin 2048) :
    yAug x0 (ix3 b j (4 : Fin 5)) = Cert.Chamfer.sq x0 b j := by
  unfold yAug
  refine (concatenate_apply_piece (α := EReal) _ _ _ (ix3 b j (4 : Fin 5)) 2 (by show (2 : Nat) < 3; omega) S16x2048x1 _ rfl rfl 4 rfl
    (ix3 b j (0 : Fin 1)) ?_ ?_).trans ?_
  · intro a ha
    match a with
    | ⟨0, _⟩ => rfl
    | ⟨1, _⟩ => rfl
    | ⟨2, _⟩ => exact absurd rfl ha
  · rfl
  · rw [broadcastInDim_apply _ _ _ _ (ix2 b j) (fun a => by match a with | ⟨0, _⟩ => rfl | ⟨1, _⟩ => rfl)]
    exact sumsq_apply x0 b j

/-! The same readings at the five literal positions. -/

theorem xAug_0 (x1 : FVec Ideal S16x2048x3 .f32) (b : Fin 16) (i : Fin 2048) :
    xAug x1 (ix3 b i (0 : Fin 5)) = (-2 : EReal) * x1 (ix3 b i (0 : Fin 3)) := xAug_lo x1 b i 0 0 rfl
theorem xAug_1 (x1 : FVec Ideal S16x2048x3 .f32) (b : Fin 16) (i : Fin 2048) :
    xAug x1 (ix3 b i (1 : Fin 5)) = (-2 : EReal) * x1 (ix3 b i (1 : Fin 3)) := xAug_lo x1 b i 1 1 rfl
theorem xAug_2 (x1 : FVec Ideal S16x2048x3 .f32) (b : Fin 16) (i : Fin 2048) :
    xAug x1 (ix3 b i (2 : Fin 5)) = (-2 : EReal) * x1 (ix3 b i (2 : Fin 3)) := xAug_lo x1 b i 2 2 rfl
theorem yAug_0 (x0 : FVec Ideal S16x2048x3 .f32) (b : Fin 16) (j : Fin 2048) :
    yAug x0 (ix3 b j (0 : Fin 5)) = x0 (ix3 b j (0 : Fin 3)) := yAug_lo x0 b j 0 0 rfl
theorem yAug_1 (x0 : FVec Ideal S16x2048x3 .f32) (b : Fin 16) (j : Fin 2048) :
    yAug x0 (ix3 b j (1 : Fin 5)) = x0 (ix3 b j (1 : Fin 3)) := yAug_lo x0 b j 1 1 rfl
theorem yAug_2 (x0 : FVec Ideal S16x2048x3 .f32) (b : Fin 16) (j : Fin 2048) :
    yAug x0 (ix3 b j (2 : Fin 5)) = x0 (ix3 b j (2 : Fin 3)) := yAug_lo x0 b j 2 2 rfl

/-! ## The algebra -/

/-- The identity on real numbers, carried to the extended reals. -/
theorem aug_identity (a0 a1 a2 b0 b1 b2 : ℝ) :
    (-2 : EReal) * (a0 : EReal) * b0 + (-2 : EReal) * (a1 : EReal) * b1 + (-2 : EReal) * (a2 : EReal) * b2
        + ((a0 : EReal) * a0 + (a1 : EReal) * a1 + (a2 : EReal) * a2) * 1
        + 1 * ((b0 : EReal) * b0 + (b1 : EReal) * b1 + (b2 : EReal) * b2)
      = (((a0 : EReal) * a0 + (a1 : EReal) * a1 + (a2 : EReal) * a2)
          + ((b0 : EReal) * b0 + (b1 : EReal) * b1 + (b2 : EReal) * b2))
        - (2 : EReal) * ((a0 : EReal) * b0 + (a1 : EReal) * b1 + (a2 : EReal) * b2) := by
  have h2 : (2 : EReal) = ((2 : ℝ) : EReal) := rfl
  have hm2 : (-2 : EReal) = ((-2 : ℝ) : EReal) := rfl
  rw [hm2, h2, mul_one, one_mul]
  simp only [← EReal.coe_mul, ← EReal.coe_add, ← EReal.coe_sub]
  refine congrArg _ ?_
  ring

/-- **The five-term inner product of the augmented points is the squared distance**, when every
    coordinate of both clouds is a real number. -/
theorem aug_dot (x1 x0 : FVec Ideal S16x2048x3 .f32) (h1 : IsReal x1) (h0 : IsReal x0)
    (b : Fin 16) (i j : Fin 2048) :
    ∑ k : Fin 5, xAug x1 (ix3 b i k) * yAug x0 (ix3 b j k) = Cert.Chamfer.dist x1 x0 b i j := by
  rw [Fin.sum_univ_five, xAug_0, xAug_1, xAug_2, xAug_3, xAug_4, yAug_0, yAug_1, yAug_2, yAug_3, yAug_4]
  unfold Cert.Chamfer.dist Cert.Chamfer.sq Cert.Chamfer.dot3
  simp only [Fin.sum_univ_three]
  obtain ⟨a0, ha0⟩ := h1 (ix3 b i 0)
  obtain ⟨a1, ha1⟩ := h1 (ix3 b i 1)
  obtain ⟨a2, ha2⟩ := h1 (ix3 b i 2)
  obtain ⟨b0, hb0⟩ := h0 (ix3 b j 0)
  obtain ⟨b1, hb1⟩ := h0 (ix3 b j 1)
  obtain ⟨b2, hb2⟩ := h0 (ix3 b j 2)
  rw [ha0, ha1, ha2, hb0, hb1, hb2]
  exact aug_identity a0 a1 a2 b0 b1 b2

end Cert.Chamfer.Aug

end
-- ==== Proof.IdealBlocks.lean ====
/-
  The region's windows, block by block. When the region is entered the first two windows' arrays hold the
  two augmented clouds; the block of a window at a grid point is the part of its array that starts at the
  block's index times the block's extents, so an entry of a block is the array's entry the block's
  coordinates further on; and the blocks of each output window that are written back fill its array.
-/
import proofs.«112872_j39951785787527_2_alg».proof.Proof.IdealAround
import proofs.«112872_j39951785787527_2_alg».proof.Proof.AugMath
import Idealize.ShloMosaic.Lib.StableHlo.Run
import Idealize.ShloMosaic.Lib.Pipeline.Value
import Idealize.ShloMosaic.Lib.ValueIdx

set_option maxRecDepth 16384

noncomputable section

namespace Cert.Chamfer.Blocks

open Cert.KernelIdeal Cert.KernelIdeal.Gen Cert.KernelIdeal.Region
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (c : Dev nD)

/-! ## What the two input arrays hold when the region is entered -/

/-- The first window's array holds the first cloud augmented. -/
theorem V_v6 : (V (F := Ideal) m c main_v6 : S16x2048x5.Idx → EReal)
    = Cert.Chamfer.Aug.xAug (m ((c : Thread nD τ).loc main_arg1)) := by
  dsimp only [V, V0]
  simp only [hostOps0, List.flatten_cons, List.flatten_nil, List.append_nil, List.cons_append, List.nil_append]
  after_results
  rfl

/-- The second window's array holds the second cloud augmented. -/
theorem V_v11 : (V (F := Ideal) m c main_v11 : S16x2048x5.Idx → EReal)
    = Cert.Chamfer.Aug.yAug (m ((c : Thread nD τ).loc main_arg0)) := by
  dsimp only [V, V0]
  simp only [hostOps0, List.flatten_cons, List.flatten_nil, List.append_nil, List.cons_append, List.nil_append]
  after_results
  rfl

/-! ## The blocks at an index -/

/-- The grid has sixteen points. -/
theorem t_lt (t : Fin cfg0.N) : t.val < 16 := lt_of_lt_of_eq t.isLt N_0

/-- Row `b` of the batch block of point `t`, as a row of the whole array. -/
abbrev bRow (t : Fin cfg0.N) (b : Fin 8) : Fin 16 :=
  ⟨8 * (t.val / 8) + b.val, by have := t_lt t; have := b.isLt; omega⟩
/-- Point `r` of the row tile of point `t`, as a point of the whole cloud. -/
abbrev pRow (t : Fin cfg0.N) (r : Fin 256) : Fin 2048 :=
  ⟨256 * (t.val % 8) + r.val, by have := r.isLt; omega⟩

/-- The four index maps over the grid: the batch block is the point's quotient by 8, the row tile its remainder. -/
theorem idx0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, win0_0.index t (0 : Fin 3) = t.val / 8 ∧ win0_0.index t (1 : Fin 3) = t.val % 8
    ∧ win0_0.index t (2 : Fin 3) = 0)
theorem idx1 : ∀ t : Fin cfg0.N, win0_1.index t (0 : Fin 3) = t.val / 8 ∧ win0_1.index t (1 : Fin 3) = 0
    ∧ win0_1.index t (2 : Fin 3) = 0 :=
  (by decide +kernel : ∀ t : Fin grid0.N, win0_1.index t (0 : Fin 3) = t.val / 8 ∧ win0_1.index t (1 : Fin 3) = 0
    ∧ win0_1.index t (2 : Fin 3) = 0)
theorem idx2 : ∀ t : Fin cfg0.N, win0_2.index t (0 : Fin 2) = t.val / 8 ∧ win0_2.index t (1 : Fin 2) = t.val % 8 :=
  (by decide +kernel : ∀ t : Fin grid0.N, win0_2.index t (0 : Fin 2) = t.val / 8 ∧ win0_2.index t (1 : Fin 2) = t.val % 8)
theorem idx3 : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-- An entry of the first input's block at point `t` is the array's entry at the block's rows further on. -/
theorem iblk0_apply (t : Fin cfg0.N) (b : Fin 8) (r : Fin 256) (k : Fin 5) :
    (iblk m c 0 t : Vec Ideal S8x256x5 .f32) (ix3 b r k)
      = (V (F := Ideal) m c main_v6 : S16x2048x5.Idx → EReal) (ix3 (bRow t b) (pRow t r) k) := by
  obtain ⟨e0, e1, e2⟩ := idx0 t
  unfold iblk
  rw [View.read_apply]
  show V m c main_v6 _ = V m c main_v6 _
  refine congrArg (V m c main_v6) (funext fun a => Fin.ext ?_)
  match a with
  | ⟨0, _⟩ => show win0_0.index t (0 : Fin 3) * 8 + 1 * b.val = 8 * (t.val / 8) + b.val; rw [e0]; omega
  | ⟨1, _⟩ => show win0_0.index t (1 : Fin 3) * 256 + 1 * r.val = 256 * (t.val % 8) + r.val; rw [e1]; omega
  | ⟨2, _⟩ => show win0_0.index t (2 : Fin 3) * 5 + 1 * k.val = k.val; rw [e2]; omega

/-- An entry of the second input's block at point `t` is the array's entry at the block's batch rows further on. -/
theorem iblk1_apply (t : Fin cfg0.N) (b : Fin 8) (j : Fin 2048) (k : Fin 5) :
    (iblk m c 1 t : Vec Ideal S8x2048x5 .f32) (ix3 b j k)
      = (V (F := Ideal) m c main_v11 : S16x2048x5.Idx → EReal) (ix3 (bRow t b) j k) := by
  obtain ⟨e0, e1, e2⟩ := idx1 t
  unfold iblk
  rw [View.read_apply]
  show V m c main_v11 _ = V m c main_v11 _
  refine congrArg (V m c main_v11) (funext fun a => Fin.ext ?_)
  match a with
  | ⟨0, _⟩ => show win0_1.index t (0 : Fin 3) * 8 + 1 * b.val = 8 * (t.val / 8) + b.val; rw [e0]; omega
  | ⟨1, _⟩ => show win0_1.index t (1 : Fin 3) * 2048 + 1 * j.val = j.val; rw [e1]; omega
  | ⟨2, _⟩ => show win0_1.index t (2 : Fin 3) * 5 + 1 * k.val = k.val; rw [e2]; omega

/-! ## The output windows' blocks, and that the blocks written back fill the arrays -/

/-- An entry of the first output's block at point `t`, read off any whole array, is the array's entry at the block's
    rows further on. -/
theorem oblk2_apply (G : FVec Ideal S16x2048 .f32) (t : Fin cfg0.N) (b : Fin 8) (r : Fin 256) :
    (((cfg0.win 2).blk t).view.read (Elt Ideal) G : Vec Ideal S8x256 .f32) (ix2 b r) = G (ix2 (bRow t b) (pRow t r)) := by
  obtain ⟨e0, e1⟩ := idx2 t
  rw [View.read_apply]
  show G _ = G _
  refine congrArg G (funext fun a => Fin.ext ?_)
  match a with
  | ⟨0, _⟩ => show win0_2.index t (0 : Fin 2) * 8 + 1 * b.val = 8 * (t.val / 8) + b.val; rw [e0]; omega
  | ⟨1, _⟩ => show win0_2.index t (1 : Fin 2) * 256 + 1 * r.val = 256 * (t.val % 8) + r.val; rw [e1]; omega

/-- An entry of the second output's block at point `t`, read off any whole array, is the array's entry at the block's
    batch rows further on. -/
theorem oblk3_apply (G : FVec Ideal S16x2048 .f32) (t : Fin cfg0.N) (b : Fin 8) (j : Fin 2048) :
    (((cfg0.win 3).blk t).view.read (Elt Ideal) G : Vec Ideal S8x2048 .f32) (ix2 b j) = G (ix2 (bRow t b) j) := by
  obtain ⟨e0, e1⟩ := idx3 t
  rw [View.read_apply]
  show G _ = G _
  refine congrArg G (funext fun a => Fin.ext ?_)
  match a with
  | ⟨0, _⟩ => show win0_3.index t (0 : Fin 2) * 8 + 1 * b.val = 8 * (t.val / 8) + b.val; rw [e0]; omega
  | ⟨1, _⟩ => show win0_3.index t (1 : Fin 2) * 2048 + 1 * j.val = j.val; rw [e1]; omega

/-- An index of the array is in point `t`'s block of the first output iff each coordinate is in the block's range. -/
theorem mem_blk2 (t : Fin cfg0.N) (i : S16x2048.Idx) :
    i ∈ ((cfg0.win 2).blk t).view.set ↔ ∀ a : Fin 2, win0_2.index t a * S8x256.size a ≤ (i a).val
      ∧ (i a).val < win0_2.index t a * S8x256.size a + S8x256.size a := by
  show i ∈ ((View.whole main_v12_0).slice (win0_2.rect t)).set ↔ _
  rw [View.set_slice_whole, Rect.mem_set_unit]
  exact Iff.rfl

/-- The same for the second output. -/
theorem mem_blk3 (t : Fin cfg0.N) (i : S16x2048.Idx) :
    i ∈ ((cfg0.win 3).blk t).view.set ↔ ∀ a : Fin 2, win0_3.index t a * S8x2048.size a ≤ (i a).val
      ∧ (i a).val < win0_3.index t a * S8x2048.size a + S8x2048.size a := by
  show i ∈ ((View.whole main_v12_1).slice (win0_3.rect t)).set ↔ _
  rw [View.set_slice_whole, Rect.mem_set_unit]
  exact Iff.rfl

/-- Every index of the first output's array is in the block of the point with its batch block and row tile. -/
theorem cover2_idx (i : S16x2048.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hN : cfg0.N = 16 := N_0
  refine ⟨⟨8 * ((i 0).val / 8) + (i 1).val / 256, by rw [hN]; omega⟩, flush0_2 _, ?_⟩
  rw [mem_blk2]
  obtain ⟨e0, e1⟩ := idx2 ⟨8 * ((i 0).val / 8) + (i 1).val / 256, by rw [hN]; omega⟩
  intro a
  match a with
  | ⟨0, _⟩ =>
    show win0_2.index ⟨8 * ((i 0).val / 8) + (i 1).val / 256, _⟩ (0 : Fin 2) * 8 ≤ (i 0).val
      ∧ (i 0).val < win0_2.index ⟨8 * ((i 0).val / 8) + (i 1).val / 256, _⟩ (0 : Fin 2) * 8 + 8
    rw [e0]; dsimp only; omega
  | ⟨1, _⟩ =>
    show win0_2.index ⟨8 * ((i 0).val / 8) + (i 1).val / 256, _⟩ (1 : Fin 2) * 256 ≤ (i 1).val
      ∧ (i 1).val < win0_2.index ⟨8 * ((i 0).val / 8) + (i 1).val / 256, _⟩ (1 : Fin 2) * 256 + 256
    rw [e1]; dsimp only; omega

/-- Every index of the second output's array is in the block of the LAST row tile's point of its batch block,
    the one point of the batch block that writes the window back. -/
theorem cover3_idx (i : S16x2048.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hN : cfg0.N = 16 := N_0
  refine ⟨⟨8 * ((i 0).val / 8) + 7, by rw [hN]; omega⟩, (flush0_3 _).mpr (by dsimp only; omega), ?_⟩
  rw [mem_blk3]
  obtain ⟨e0, e1⟩ := idx3 ⟨8 * ((i 0).val / 8) + 7, by rw [hN]; omega⟩
  intro a
  match a with
  | ⟨0, _⟩ =>
    show win0_3.index ⟨8 * ((i 0).val / 8) + 7, _⟩ (0 : Fin 2) * 8 ≤ (i 0).val
      ∧ (i 0).val < win0_3.index ⟨8 * ((i 0).val / 8) + 7, _⟩ (0 : Fin 2) * 8 + 8
    rw [e0]; dsimp only; omega
  | ⟨1, _⟩ =>
    show win0_3.index ⟨8 * ((i 0).val / 8) + 7, _⟩ (1 : Fin 2) * 2048 ≤ (i 1).val
      ∧ (i 1).val < win0_3.index ⟨8 * ((i 0).val / 8) + 7, _⟩ (1 : Fin 2) * 2048 + 2048
    rw [e1]; omega

/-- The cover of the first output's array, in the form the whole-array post asks. -/
theorem cover2 : ∀ i : ((cfg0.win 2).arr.view.loc (c.tc : Thread nD τ)).2.ty.Idx,
    ∃ t : Fin cfg0.N, (cfg0.win 2).flush t = true ∧ i ∈ ((cfg0.win 2).blk t).view.set :=
  fun i => cover2_idx i

/-- The cover of the second output's array, in the form the whole-array post asks. -/
theorem cover3 : ∀ i : ((cfg0.win 3).arr.view.loc (c.tc : Thread nD τ)).2.ty.Idx,
    ∃ t : Fin cfg0.N, (cfg0.win 3).flush t = true ∧ i ∈ ((cfg0.win 3).blk t).view.set :=
  fun i => cover3_idx i

end Cert.Chamfer.Blocks

end
-- ==== Proof.IdealAccum.lean ====
/-
  The accumulation over the row tiles, on the extended reals.

  One tile's column minimum at column j of batch row b is the greatest lower bound, over the tile's 256 rows, of
  the 5-term products of the augmented rows. At the first row tile of a batch block the accumulator ends at that
  column minimum (the minimum with the +inf fill); at a later tile at the minimum of what it held and the tile's
  column minimum. So after the k-th tile of a block it holds the greatest lower bound over the block's first
  256·k rows, and after the eighth the greatest lower bound over all 2048 rows. The first output of every tile is
  the greatest lower bound over all 2048 columns. The blocks the pipeline writes back tile the two result arrays.
-/
import proofs.«112872_j39951785787527_2_alg».proof.Proof.IdealPieces
import proofs.«112872_j39951785787527_2_alg».proof.Proof.BodyMath
import proofs.«112872_j39951785787527_2_alg».proof.Proof.IdealBlocks

set_option maxRecDepth 16384

noncomputable section

namespace Cert.KernelIdeal.Region

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx
open Cert.Chamfer Cert.Chamfer.Blocks
open scoped BigOperators

/-! ## Greatest lower bounds over the first rows -/

/-- The greatest lower bound of `f` over the indices below 256·k. -/
def low (k : ℕ) (f : Fin 2048 → EReal) : EReal := ⨅ i : Fin 2048, ⨅ _ : i.val < 256 * k, f i

theorem low_zero (f : Fin 2048 → EReal) : low 0 f = ⊤ := by
  unfold low
  refine le_antisymm le_top (le_iInf fun i => le_iInf fun h => ?_)
  exact absurd h (by omega)

theorem low_succ (k : ℕ) (hk : k < 8) (f : Fin 2048 → EReal) :
    low (k + 1) f = min (low k f) (⨅ r : Fin 256, f ⟨256 * k + r.val, by have := r.isLt; omega⟩) := by
  refine eq_of_forall_le_iff fun z => ?_
  simp only [low, le_iInf_iff, le_min_iff]
  constructor
  · intro h
    exact ⟨fun i hi => h i (by omega), fun r => h _ (by have := r.isLt; show 256 * k + r.val < 256 * (k + 1); omega)⟩
  · rintro ⟨h1, h2⟩ i hi
    by_cases hlt : i.val < 256 * k
    · exact h1 i hlt
    · have hr : i.val - 256 * k < 256 := by omega
      have e : (⟨256 * k + (⟨i.val - 256 * k, hr⟩ : Fin 256).val, by have := i.isLt; show 256 * k + (i.val - 256 * k) < 2048; omega⟩ : Fin 2048) = i :=
        Fin.ext (by show 256 * k + (i.val - 256 * k) = i.val; omega)
      have := h2 ⟨i.val - 256 * k, hr⟩
      rwa [e] at this

theorem low_eight (f : Fin 2048 → EReal) : low 8 f = ⨅ i, f i := by
  unfold low
  exact iInf_congr fun i => iInf_pos (by have := i.isLt; omega)

/-! ## One tile's effect on the accumulator -/

/-- After a first row tile the accumulator holds the tile's column minima. -/
theorem sout0_A_at (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : cond0_0 i) (x0 : Vec Ideal S8x256x5 .f32) (x1 : Vec Ideal S8x2048x5 .f32) (b : Fin 8) (j : Fin 2048) :
    sout0_A_0 (F := Ideal) c i arg2 harg2 arg3 harg3 arg4 harg4 arg5 harg5 arg6 harg6 hc0 x0 x1 (ix2 b j) = ⨅ r : Fin 256, Body.kd x0 x1 b r j := by
  revert j
  rw [Body.forall_cols (fun j => sout0_A_0 (F := Ideal) c i arg2 harg2 arg3 harg3 arg4 harg4 arg5 harg5 arg6 harg6 hc0 x0 x1 (ix2 b j) = ⨅ r : Fin 256, Body.kd x0 x1 b r j)]
  refine ⟨fun q => ?_, fun q => ?_, fun q => ?_, fun q => ?_⟩
  · have hq := q.isLt
    obtain ⟨V, hV, hS⟩ := sout0_A_0_c0 (F := Ideal) c i arg2 harg2 arg3 harg3 arg4 harg4 arg5 harg5 arg6 harg6 hc0 x0 x1 b q (Body.j0 q) (by show q.val = 0 + q.val; omega)
    refine hS.trans ?_
    refine (Body.pay9_at x0 x1 V b q).trans ?_
    exact (congrArg (fun z => min z _) (hV.trans (congrFun Body.pay7_eq _))).trans (min_top_left _)
  · have hq := q.isLt
    obtain ⟨V, hV, hS⟩ := sout0_A_0_c512 (F := Ideal) c i arg2 harg2 arg3 harg3 arg4 harg4 arg5 harg5 arg6 harg6 hc0 x0 x1 b q (Body.j1 q) (by show 512 + q.val = 512 + q.val; omega)
    refine hS.trans ?_
    refine (Body.pay12_at x0 x1 V b q).trans ?_
    exact (congrArg (fun z => min z _) (hV.trans (congrFun Body.pay7_eq _))).trans (min_top_left _)
  · have hq := q.isLt
    obtain ⟨V, hV, hS⟩ := sout0_A_0_c1024 (F := Ideal) c i arg2 harg2 arg3 harg3 arg4 harg4 arg5 harg5 arg6 harg6 hc0 x0 x1 b q (Body.j2 q) (by show 1024 + q.val = 1024 + q.val; omega)
    refine hS.trans ?_
    refine (Body.pay1_at x0 x1 V b q).trans ?_
    exact (congrArg (fun z => min z _) (hV.trans (congrFun Body.pay7_eq _))).trans (min_top_left _)
  · have hq := q.isLt
    obtain ⟨V, hV, hS⟩ := sout0_A_0_c1536 (F := Ideal) c i arg2 harg2 arg3 harg3 arg4 harg4 arg5 harg5 arg6 harg6 hc0 x0 x1 b q (Body.j3 q) (by show 1536 + q.val = 1536 + q.val; omega)
    refine hS.trans ?_
    refine (Body.pay4_at x0 x1 V b q).trans ?_
    exact (congrArg (fun z => min z _) (hV.trans (congrFun Body.pay7_eq _))).trans (min_top_left _)

/-- After a later row tile it holds the minimum of what it held and the tile's column minima. -/
theorem sout0_B_at (c : Dev nD) (i : grid0.Coords) (arg2 : Memref sig .tc .vmem S8x256x5 .f32) (harg2 : arg2.IsWhole) (arg3 : Memref sig .tc .vmem S8x2048x5 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x2048 .f32) (harg6 : arg6.IsWhole) (hc0 : ¬cond0_0 i) (x0 : Vec Ideal S8x256x5 .f32) (x1 : Vec Ideal S8x2048x5 .f32) (xs0 : Vec Ideal S8x2048 .f32) (b : Fin 8) (j : Fin 2048) :
    sout0_B_0 (F := Ideal) c i arg2 harg2 arg3 harg3 arg4 harg4 arg5 harg5 arg6 harg6 hc0 x0 x1 xs0 (ix2 b j) = min (xs0 (ix2 b j)) (⨅ r : Fin 256, Body.kd x0 x1 b r j) := by
  rw [sout0_B_0_canon]
  revert j
  rw [Body.forall_cols (fun j => View.canon _ (ix2 b j) = min (xs0 (ix2 b j)) (⨅ r : Fin 256, Body.kd x0 x1 b r j))]
  refine ⟨fun q => ?_, fun q => ?_, fun q => ?_, fun q => ?_⟩
  · have hq := q.isLt
    refine (canon_skip 1536 inb_S8x2048_S8x512_0_1536 _ _ b _ (Or.inl (by show q.val < 1536; omega))).trans ?_
    refine (canon_skip 1024 inb_S8x2048_S8x512_0_1024 _ _ b _ (Or.inl (by show q.val < 1024; omega))).trans ?_
    refine (canon_skip 512 inb_S8x2048_S8x512_0_512 _ _ b _ (Or.inl (by show q.val < 512; omega))).trans ?_
    refine (canon_hit 0 inb_S8x2048_S8x512_0_0 _ _ b q (Body.j0 q) (by show q.val = 0 + q.val; omega)).trans ?_
    refine (Body.pay9_at x0 x1 _ b q).trans ?_
    exact congrArg (fun z => min z _) (ld_cols 0 inb_S8x2048_S8x512_0_0 xs0 b q (Body.j0 q) (by show q.val = 0 + q.val; omega))
  · have hq := q.isLt
    refine (canon_skip 1536 inb_S8x2048_S8x512_0_1536 _ _ b _ (Or.inl (by show 512 + q.val < 1536; omega))).trans ?_
    refine (canon_skip 1024 inb_S8x2048_S8x512_0_1024 _ _ b _ (Or.inl (by show 512 + q.val < 1024; omega))).trans ?_
    refine (canon_hit 512 inb_S8x2048_S8x512_0_512 _ _ b q (Body.j1 q) (by show 512 + q.val = 512 + q.val; omega)).trans ?_
    refine (Body.pay12_at x0 x1 _ b q).trans ?_
    exact congrArg (fun z => min z _) (ld_cols 512 inb_S8x2048_S8x512_0_512 xs0 b q (Body.j1 q) (by show 512 + q.val = 512 + q.val; omega))
  · have hq := q.isLt
    refine (canon_skip 1536 inb_S8x2048_S8x512_0_1536 _ _ b _ (Or.inl (by show 1024 + q.val < 1536; omega))).trans ?_
    refine (canon_hit 1024 inb_S8x2048_S8x512_0_1024 _ _ b q (Body.j2 q) (by show 1024 + q.val = 1024 + q.val; omega)).trans ?_
    refine (Body.pay1_at x0 x1 _ b q).trans ?_
    exact congrArg (fun z => min z _) (ld_cols 1024 inb_S8x2048_S8x512_0_1024 xs0 b q (Body.j2 q) (by show 1024 + q.val = 1024 + q.val; omega))
  · have hq := q.isLt
    refine (canon_hit 1536 inb_S8x2048_S8x512_0_1536 _ _ b q (Body.j3 q) (by show 1536 + q.val = 1536 + q.val; omega)).trans ?_
    refine (Body.pay4_at x0 x1 _ b q).trans ?_
    exact congrArg (fun z => min z _) (ld_cols 1536 inb_S8x2048_S8x512_0_1536 xs0 b q (Body.j3 q) (by show 1536 + q.val = 1536 + q.val; omega))

/-! ## Over the grid -/

variable (m : (ℓ : Loc nD τ sig) → Buf (Elt Ideal) ℓ) (c : Dev nD)

/-- The first augmented array as the region finds it, as a function into the extended reals. -/
def XA : S16x2048x5.Idx → EReal := V (F := Ideal) m c main_v6
/-- The second augmented array likewise. -/
def YA : S16x2048x5.Idx → EReal := V (F := Ideal) m c main_v11
/-- The table of their 5-term products. -/
def D (bb : Fin 16) (i j : Fin 2048) : EReal :=
  ∑ k : Fin 5, XA m c (ix3 bb i k) * YA m c (ix3 bb j k)

/-- A tile's products are the table's, at the tile's rows of its batch block. -/
theorem kd_blocks (t : Fin cfg0.N) (b : Fin 8) (r : Fin 256) (j : Fin 2048) :
    Body.kd (iblk m c 0 t) (iblk m c 1 t) b r j = D m c (bRow t b) (pRow t r) j := by
  unfold Body.kd D XA YA
  refine Finset.sum_congr rfl fun k _ => ?_
  rw [iblk0_apply m c t b r k, iblk1_apply m c t b j k]

/-- The first output after point `t`: each of the tile's points against all 2048 columns. -/
theorem rowRes (t : Fin cfg0.N) (b : Fin 8) (r : Fin 256) :
    (outsAt0 (F := Ideal) m c t.val t.isLt).1 (ix2 b r) = ⨅ j : Fin 2048, D m c (bRow t b) (pRow t r) j := by
  have key : (outsAt0 (F := Ideal) m c t.val t.isLt).1
      = k0_pay3 (F := Ideal) (k0_pay5 (iblk m c 0 t)) (k0_pay6 (iblk m c 1 t)) (k0_pay11 (iblk m c 0 t) (iblk m c 1 t)) (k0_pay13 (iblk m c 0 t) (iblk m c 1 t)) := by
    by_cases h0 : t.val % 8 = 0
    · rw [outsAt0_A m c t h0]; unfold ptA; dsimp only
      exact out0_A_2_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t)
    · rw [outsAt0_B m c t h0]; unfold ptB; dsimp only
      exact out0_B_2_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (outsAt0 (F := Ideal) m c (t.val - 1) (Nat.lt_of_le_of_lt (Nat.sub_le _ _) t.isLt)).2.2
  refine (congrFun key _).trans ?_
  refine (Body.pay3_at _ _ b r).trans ?_
  exact iInf_congr fun j => kd_blocks m c t b r j

/-- The second output after any point is the accumulator after it. -/
theorem out3_eq_acc (t : Fin cfg0.N) :
    (outsAt0 (F := Ideal) m c t.val t.isLt).2.1 = (outsAt0 (F := Ideal) m c t.val t.isLt).2.2 := by
  by_cases h0 : t.val % 8 = 0
  · rw [outsAt0_A m c t h0]; unfold ptA; dsimp only
    exact out0_A_3_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t)
  · rw [outsAt0_B m c t h0]; unfold ptB; dsimp only
    exact out0_B_3_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (outsAt0 (F := Ideal) m c (t.val - 1) (Nat.lt_of_le_of_lt (Nat.sub_le _ _) t.isLt)).2.2

theorem accA (t : Fin cfg0.N) (h0 : t.val % 8 = 0) (b : Fin 8) (j : Fin 2048) :
    (outsAt0 (F := Ideal) m c t.val t.isLt).2.2 (ix2 b j) = ⨅ r : Fin 256, D m c (bRow t b) (pRow t r) j := by
  rw [outsAt0_A m c t h0]; unfold ptA; dsimp only
  refine (sout0_A_at c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) b j).trans ?_
  exact iInf_congr fun r => kd_blocks m c t b r j

theorem accB (t : Fin cfg0.N) (h0 : ¬t.val % 8 = 0) (b : Fin 8) (j : Fin 2048) :
    (outsAt0 (F := Ideal) m c t.val t.isLt).2.2 (ix2 b j)
      = min ((outsAt0 (F := Ideal) m c (t.val - 1) (Nat.lt_of_le_of_lt (Nat.sub_le _ _) t.isLt)).2.2 (ix2 b j)) (⨅ r : Fin 256, D m c (bRow t b) (pRow t r) j) := by
  rw [outsAt0_B m c t h0]; unfold ptB; dsimp only
  refine (sout0_B_at c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (outsAt0 (F := Ideal) m c (t.val - 1) (Nat.lt_of_le_of_lt (Nat.sub_le _ _) t.isLt)).2.2 b j).trans ?_
  exact congrArg (min _) (iInf_congr fun r => kd_blocks m c t b r j)

/-- THE INVARIANT: after the point at position `n` the accumulator holds, at row `b` and column `j`, the greatest
    lower bound of the table over the first 256·(n mod 8 + 1) rows of the point's batch row. -/
theorem acc_eq : ∀ (n : ℕ) (hn : n < cfg0.N) (b : Fin 8) (j : Fin 2048),
    (outsAt0 (F := Ideal) m c n hn).2.2 (ix2 b j) = low (n % 8 + 1) (fun i => D m c (bRow ⟨n, hn⟩ b) i j) := by
  intro n
  induction n with
  | zero =>
    intro hn b j
    refine (accA m c ⟨0, hn⟩ (Nat.zero_mod 8) b j).trans ?_
    rw [show (0 % 8 + 1 : ℕ) = 0 + 1 from rfl, low_succ 0 (by omega), low_zero, min_top_left]
    try exact iInf_congr fun r => congrArg (fun ii => D m c _ ii j) (Fin.ext rfl)
  | succ n ih =>
    intro hn b j
    have hN : n + 1 < 16 := lt_of_lt_of_eq hn (show cfg0.N = 16 from N_0)
    by_cases h0 : (n + 1) % 8 = 0
    · refine (accA m c ⟨n + 1, hn⟩ h0 b j).trans ?_
      have hk : (n + 1) % 8 + 1 = 0 + 1 := by rw [h0]
      rw [hk, low_succ 0 (by omega), low_zero, min_top_left]
      try exact iInf_congr fun r => congrArg (fun ii => D m c _ ii j) (Fin.ext (by show 256 * ((n + 1) % 8) + r.val = 256 * 0 + r.val; rw [h0]))
    · refine (accB m c ⟨n + 1, hn⟩ h0 b j).trans ?_
      refine (congrArg (fun z => min z _) (ih (Nat.lt_of_succ_lt hn) b j)).trans ?_
      have hb : bRow ⟨n, Nat.lt_of_succ_lt hn⟩ b = bRow ⟨n + 1, hn⟩ b :=
        Fin.ext (by show 8 * (n / 8) + b.val = 8 * ((n + 1) / 8) + b.val; omega)
      have hk : (n + 1) % 8 = n % 8 + 1 := by omega
      rw [hb, hk, low_succ (n % 8 + 1) (by omega)]
      exact congrArg (min _) (iInf_congr fun r => congrArg (fun ii => D m c _ ii j) (Fin.ext (by show 256 * ((n + 1) % 8) + r.val = 256 * (n % 8 + 1) + r.val; rw [hk])))

/-! ## The two result arrays -/

/-- For each point of the first cloud, the greatest lower bound of its row of the table. -/
def G2 : FVec Ideal S16x2048 .f32 := fun p => ⨅ j : Fin 2048, D m c (p 0) (p 1) j
/-- For each point of the second cloud, the greatest lower bound of its column of the table. -/
def G3 : FVec Ideal S16x2048 .f32 := fun p => ⨅ i : Fin 2048, D m c (p 0) i (p 1)

/-- What point `t` writes back of the first result is its block of `G2`. -/
theorem flushed2_eq (t : Fin cfg0.N) :
    (dats (F := Ideal) m 0 c).flushed 2 t = ((cfg0.win 2).blk t).view.read (Elt Ideal) (G2 m c) := by
  show (cfg0.win 2).cut (grid0.coords t) ((dats (F := Ideal) m 0 c).after 2 t) = _
  rw [after0_2]
  funext y
  obtain ⟨b, r, rfl⟩ : ∃ (b : Fin 8) (r : Fin 256), y = ix2 b r := ⟨y 0, y 1, eq_ix2 y⟩
  refine (rowRes m c t b r).trans ?_
  exact (oblk2_apply (G2 m c) t b r).symm

/-- What a last row tile writes back of the second result is its block of `G3`. -/
theorem flushed3_eq (t : Fin cfg0.N) (hf : (cfg0.win 3).flush t = true) :
    (dats (F := Ideal) m 0 c).flushed 3 t = ((cfg0.win 3).blk t).view.read (Elt Ideal) (G3 m c) := by
  have h7 : t.val % 8 = 7 := (flush0_3 t).mp hf
  show (cfg0.win 3).cut (grid0.coords t) ((dats (F := Ideal) m 0 c).after 3 t) = _
  rw [after0_3, out3_eq_acc m c t]
  funext y
  obtain ⟨b, j, rfl⟩ : ∃ (b : Fin 8) (j : Fin 2048), y = ix2 b j := ⟨y 0, y 1, eq_ix2 y⟩
  refine (acc_eq m c t.val t.isLt b j).trans ?_
  have hk : t.val % 8 + 1 = 8 := by omega
  rw [hk]
  refine (low_eight _).trans ?_
  exact (oblk3_apply (G3 m c) t b j).symm

theorem final2 : (dats (F := Ideal) m 0 c).arrAt 2 cfg0.N = G2 m c :=
  (dats (F := Ideal) m 0 c).arrAt_eq_of_cover 2 (G2 m c) (fun t _ => flushed2_eq m c t) (cover2 c)

theorem final3 : (dats (F := Ideal) m 0 c).arrAt 3 cfg0.N = G3 m c :=
  (dats (F := Ideal) m 0 c).arrAt_eq_of_cover 3 (G3 m c) (fun t hf => flushed3_eq m c t hf) (cover3 c)

/-! ## With real inputs the table is the squared distances -/

theorem D_eq_dist (hx : Aug.IsReal (m ((c : Thread nD τ).loc main_arg1))) (hy : Aug.IsReal (m ((c : Thread nD τ).loc main_arg0)))
    (bb : Fin 16) (i j : Fin 2048) :
    D m c bb i j = dist (m ((c : Thread nD τ).loc main_arg1)) (m ((c : Thread nD τ).loc main_arg0)) bb i j := by
  unfold D XA YA
  rw [V_v6 m c, V_v11 m c]
  exact Aug.aug_dot _ _ hx hy bb i j

theorem G2_eq (hx : Aug.IsReal (m ((c : Thread nD τ).loc main_arg1))) (hy : Aug.IsReal (m ((c : Thread nD τ).loc main_arg0))) :
    G2 m c = nearX (m ((c : Thread nD τ).loc main_arg1)) (m ((c : Thread nD τ).loc main_arg0)) :=
  funext fun p => iInf_congr fun j => D_eq_dist m c hx hy (p 0) (p 1) j

theorem G3_eq (hx : Aug.IsReal (m ((c : Thread nD τ).loc main_arg1))) (hy : Aug.IsReal (m ((c : Thread nD τ).loc main_arg0))) :
    G3 m c = nearY (m ((c : Thread nD τ).loc main_arg1)) (m ((c : Thread nD τ).loc main_arg0)) :=
  funext fun p => iInf_congr fun i => D_eq_dist m c hx hy (p 0) i (p 1)

end Cert.KernelIdeal.Region

end
-- ==== Proof.IdealTail.lean ====
/-
  The host lines after the region: from the two nearest-neighbour arrays the region leaves, the mask and the
  fourth argument they compute three means and add them. Composed, that is the loss as the specification
  spells it; the second result is the zero word.
-/
import proofs.«112872_j39951785787527_2_alg».proof.Proof.IdealAround
import proofs.«112872_j39951785787527_2_alg».proof.Proof.Spec
import Idealize.ShloMosaic.Lib.StableHlo.Run
import Idealize.ShloMosaic.Lib.Pipeline.FrameSuffix

set_option maxRecDepth 16384

noncomputable section

namespace Cert.Chamfer.Tail

open Cert.KernelIdeal Cert.KernelIdeal.Gen Cert.KernelIdeal.Region
open Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (c : Dev nD)
variable (dats : (p : Fin 1) → (c : Dev nD) → Dat τ (Elt Ideal) Unit ℕ (UR sig nD τ) ℕ (cfgs p) c)

/-- **The first result of the program is the loss** of the two arrays the region leaves, the mask and the fourth
    argument: the mean of the second array weighted by the mask, plus the mean of the first, plus the mean of the
    fourth argument's squares. -/
theorem tail_v23 :
    Pipeline.afterTail₀ cfgs dats 0 (V0 m) [hostOps1] c main_v23
      = Cert.Chamfer.loss Gen.reducesTo_S16x2048_S_d0_1 Gen.reducesTo_S16x2048x3_S_d0_1_2 Gen.h_S_ Gen.shapeCasts_S4x4x2x32x32_S16x2048
          ((dats 0 c).arrAt 2 cfg0.N) ((dats 0 c).arrAt 3 cfg0.N)
          (m ((c : Thread nD τ).loc main_arg2)) (m ((c : Thread nD τ).loc main_arg3)) := by
  unfold Pipeline.afterTail₀
  generalize hW : Pipeline.withArrays (cfgs 0).spec c (V0 m c) (fun w => (dats 0 c).arrAt w (cfgs 0).N) = W
  simp only [hostOps1, List.flatten_cons, List.flatten_nil, List.append_nil, List.cons_append, List.nil_append]
  after_results_simp
  have e2 : W (Proc.devRef .tc main_v12_0) = (dats 0 c).arrAt 2 cfg0.N := by
    rw [← hW]; exact Pipeline.withArrays_arr spec0 launch0.win.arr_inj c _ _ 2
  have e3 : W (Proc.devRef .tc main_v12_1) = (dats 0 c).arrAt 3 cfg0.N := by
    rw [← hW]; exact Pipeline.withArrays_arr spec0 launch0.win.arr_inj c _ _ 3
  have ea2 : W (Proc.devRef .tc main_arg2) = m ((c : Thread nD τ).loc main_arg2) := by
    rw [← hW]; exact (Pipeline.withArrays_of_ne _ c _ _ main_arg2 (by decide)).trans (V_main_arg2 m c)
  have ea3 : W (Proc.devRef .tc main_arg3) = m ((c : Thread nD τ).loc main_arg3) := by
    rw [← hW]; exact (Pipeline.withArrays_of_ne _ c _ _ main_arg3 (by decide)).trans (V_main_arg3 m c)
  rw [e2, e3, ea2, ea3]
  rfl

/-- The second result of the program is the zero word. -/
theorem tail_cst10 :
    Pipeline.afterTail₀ cfgs dats 0 (V0 m) [hostOps1] c main_cst_10 = constant (F := Ideal) S_ .f32 0x00000000#32 := by
  unfold Pipeline.afterTail₀
  generalize hW : Pipeline.withArrays (cfgs 0).spec c (V0 m c) (fun w => (dats 0 c).arrAt w (cfgs 0).N) = W
  simp only [hostOps1, List.flatten_cons, List.flatten_nil, List.append_nil, List.cons_append, List.nil_append]
  after_results_simp

/-- Both result buffers are unscoped and are no array of the region. -/
theorem v23_mem_rest : main_v23 ∈ Pipeline.restRefs sig spec0 :=
  Pipeline.mem_restRefs_of main_v23 (by decide) (by decide)
theorem cst10_mem_rest : main_cst_10 ∈ Pipeline.restRefs sig spec0 :=
  Pipeline.mem_restRefs_of main_cst_10 (by decide) (by decide)

end Cert.Chamfer.Tail

end
-- ==== Proof.AugFinite.lean ====
/-
  From the precondition to real entries. The precondition says of each of the four argument arrays
  that every entry x satisfies |x| < +∞, and that the four statements hold together. On the extended
  reals |x| = max x (-x) is +∞ at both infinities, so an entry passing the test is a real number.
-/
import proofs.«112872_j39951785787527_2_alg».proof.Proof.AugMath
import proofs.«112872_j39951785787527_2_alg».proof.Pre_finite_inputs
import Idealize.ShloMosaic.PureOps.Ideal.Laws
import Idealize.ShloMosaic.Lib.ValueIdx
import Idealize.ShloMosaic.Lib.ReduceAll

noncomputable section

namespace Cert.Chamfer.Aug

open Idealize.ShloMosaic Idealize.ShloMosaic.ValueIdx

/-- The scalar shape has one index. -/
instance : Subsingleton Cert.Pre_finite_inputs.S_.Idx := ⟨fun a b => funext fun d => d.elim0⟩

/-- The word of +∞. -/
theorem ofBits_inf : Ideal.ofBits .f32 0x7F800000#32 = ⊤ := by simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

variable [Cert.Pre_finite_inputs.Facts]
open Cert.Pre_finite_inputs.Facts

/-- **Under the precondition the first two argument arrays are real.** -/
theorem isReal_of_pre (a0 a1 : FVec Ideal Cert.Pre_finite_inputs.S16x2048x3 .f32)
    (a2 : FVec Ideal Cert.Pre_finite_inputs.S4x4x2x32x32 .f32) (a3 : FVec Ideal Cert.Pre_finite_inputs.S16x2048x3 .f32)
    (h : Cert.Pre_finite_inputs.fn (F := Ideal) a0 a1 a2 a3 = (fun _ => 1#1)) : IsReal a0 ∧ IsReal a1 := by
  have h' := congrFun h ValueIdx.ix0
  dsimp only [Cert.Pre_finite_inputs.fn, Cert.Pre_finite_inputs.fn_part1] at h'
  obtain ⟨h012, _⟩ := IntOp.andi_eq_one.1 h'
  obtain ⟨h01, _⟩ := IntOp.andi_eq_one.1 h012
  obtain ⟨hr0, hr1⟩ := IntOp.andi_eq_one.1 h01
  refine ⟨fun p => ?_, fun p => ?_⟩
  · exact real_of_abs_lt (a0 p) (Host.reduce_andi_all _ _ _ _ _ hr0 p)
  · exact real_of_abs_lt (a1 p) (Host.reduce_andi_all _ _ _ _ _ hr1 p)

end Cert.Chamfer.Aug

end
-- ==== Proof.IdealValue.lean ====
/-
  The idealized kernel's run with its results named. The first result is the loss of the two nearest-neighbour
  arrays, the mask and the fourth argument; with real inputs the two arrays the region leaves are the
  nearest-neighbour distances of the specification, because the 5-term product of the augmented coordinates is
  then the squared distance. The second result is the zero word. The four arguments end as launched.
-/
import proofs.«112872_j39951785787527_2_alg».proof.Proof.IdealAccum
import proofs.«112872_j39951785787527_2_alg».proof.Proof.IdealTail
import proofs.«112872_j39951785787527_2_alg».proof.Proof.AugFinite

set_option maxRecDepth 16384

noncomputable section

namespace Cert.KernelIdeal.Region

open Cert.KernelIdeal Cert.KernelIdeal.Gen
open Idealize.ShloMosaic Idealize.ShloMosaic.TcCoe
open Idealize.SL Idealize.SL.Sem
open Idealize.ShloMosaic.Pipeline (Dat)
open Cert.Chamfer

variable (m : (ℓ : Loc nD τ sig) → Buf (Elt Ideal) ℓ) (ρ : Dev nD → PrngReg)

/-- The loss as a function of the four argument arrays: the specification's loss of the specification's two
    nearest-neighbour arrays (the first cloud is the second argument, the second cloud the first). -/
def lossOf (a0 a1 : FVec Ideal S16x2048x3 .f32) (a2 : FVec Ideal S4x4x2x32x32 .f32) (a3 : FVec Ideal S16x2048x3 .f32) : FVec Ideal S_ .f32 :=
  Cert.Chamfer.loss Gen.reducesTo_S16x2048_S_d0_1 Gen.reducesTo_S16x2048x3_S_d0_1_2 Gen.h_S_ Gen.shapeCasts_S4x4x2x32x32_S16x2048
    (nearX a1 a0) (nearY a1 a0) a2 a3

/-- With real point clouds, every weakly fair execution of the idealized kernel terminates with the first result
    at the loss of the arguments, the second at the zero word, and the arguments unchanged. -/
theorem run_value (hre : ∀ c : Dev nD, Aug.IsReal (m ((c : Thread nD τ).loc main_arg0)) ∧ Aug.IsReal (m ((c : Thread nD τ).loc main_arg1))) :
    θ_run defs (onTc (τ := τ) (main (F := Ideal))) ⟨m, fun _ => 0, ρ⟩ (fun r => ∀ c : Dev nD,
      r.2.mem ((c.tc : Thread nD τ).loc main_v23) = lossOf (m ((c : Thread nD τ).loc main_arg0)) (m ((c : Thread nD τ).loc main_arg1)) (m ((c : Thread nD τ).loc main_arg2)) (m ((c : Thread nD τ).loc main_arg3))
      ∧ r.2.mem ((c.tc : Thread nD τ).loc main_cst_10) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨
      ((h c).2 main_v23 Tail.v23_mem_rest).trans ((Tail.tail_v23 m c (dats m)).trans (by
        rw [final2 m c, final3 m c, G2_eq m c (hre c).2 (hre c).1, G3_eq m c (hre c).2 (hre c).1]; rfl)),
      ((h c).2 main_cst_10 Tail.cst10_mem_rest).trans (Tail.tail_cst10 m c (dats m)),
      ((h c).2 main_arg0 (Pipeline.mem_restRefs_of main_arg0 (by decide) (by decide))).trans (end_main_arg0 m (dats m) c),
      ((h c).2 main_arg1 (Pipeline.mem_restRefs_of main_arg1 (by decide) (by decide))).trans (end_main_arg1 m (dats m) c),
      ((h c).2 main_arg2 (Pipeline.mem_restRefs_of main_arg2 (by decide) (by decide))).trans (end_main_arg2 m (dats m) c),
      ((h c).2 main_arg3 (Pipeline.mem_restRefs_of main_arg3 (by decide) (by decide))).trans (end_main_arg3 m (dats m) c)⟩)
    (run_main m ρ)

end Cert.KernelIdeal.Region

end
-- ==== Proof.LibMinAxis.lean ====
/-
  The host's minimum over ONE axis of an array of extended reals, by its universal property.

  A value is below the host's `reduce minimum` over one axis, at a result index, exactly when it is below the initial
  value and below every element of the reduced line (`le_hostMin_single`); so from `+∞` the result IS the greatest lower
  bound of the line (`hostMin_single_eq_iInf`). The reduced line's indices, for the middle axis of a rank-3 array and the
  third axis of a rank-4 one, are the result index with the coordinate inserted (`lift_mid3`, `lift_third4`).
  Nothing here depends on a program: any shapes, any initial value.
-/
import Idealize.ShloMosaic.PureOps.Ideal
import Idealize.ShloMosaic.PureOps.Ideal.Laws
import Idealize.ShloMosaic.PureOps.Reduce
import Idealize.ShloMosaic.Lib.ValueIdx

noncomputable section

namespace Cert.LibMinAxis

open Idealize.ShloMosaic Idealize.ShloMosaic.ValueIdx

/-- Below the host's minimum over one axis iff below the initial value and below every element of the reduced line. -/
theorem le_hostMin_single {s t u : Shape} {a : Fin s.rank} (x : s.Idx → EReal) (init : u.Idx → EReal)
    (h' : s.ReducesTo [a] t) (h : s.Reduces [a] t) (hu : 0 < u.numel) (j : t.Idx) (z : EReal) :
    z ≤ Host.reduce (FloatOps.minimumf (F := Ideal) (φ := .f32)) x init h' hu j
      ↔ z ≤ init (Shape.Idx.first hu) ∧ ∀ k : Fin (s.size a), z ≤ x (h.lift j k) := by
  classical
  rw [Host.reduce_eq_fold_single (FloatOps.minimumf (F := Ideal) (φ := .f32)) x init h' h hu j]
  refine (Finset.le_fold_min (s := (Finset.univ : Finset (Fin (s.size a)))) (f := x ∘ h.lift j)
    (b := init (Shape.Idx.first hu)) z).trans ?_
  simp only [Finset.mem_univ, true_implies, Function.comp_apply]

/-- From `+∞` the host's minimum over one axis is the greatest lower bound of the reduced line. -/
theorem hostMin_single_eq_iInf {s t u : Shape} {a : Fin s.rank} (x : s.Idx → EReal) (init : u.Idx → EReal)
    (h' : s.ReducesTo [a] t) (h : s.Reduces [a] t) (hu : 0 < u.numel) (hinit : init (Shape.Idx.first hu) = ⊤) (j : t.Idx) :
    Host.reduce (FloatOps.minimumf (F := Ideal) (φ := .f32)) x init h' hu j = ⨅ k : Fin (s.size a), x (h.lift j k) := by
  refine eq_of_forall_le_iff fun z => ?_
  rw [le_hostMin_single x init h' h hu j z, hinit, le_iInf_iff]
  exact ⟨fun hh => hh.2, fun hh => ⟨le_top, hh⟩⟩

/-- Reducing the middle axis of `[A, B, C]`: the index `(r, q)` with coordinate `k` inserted is `(r, k, q)`. -/
theorem lift_mid3 {A B C : ℕ} (h : (⟨3, ![A, B, C]⟩ : Shape).Reduces [1] ⟨2, ![A, C]⟩) (r : Fin A) (q : Fin C) (k : Fin B) :
    h.lift (ix2 r q) k = ix3 r k q := by
  funext c
  match c with
  | ⟨0, _⟩ => exact Fin.ext rfl
  | ⟨1, _⟩ => exact Fin.ext rfl
  | ⟨2, _⟩ => exact Fin.ext rfl

/-- Reducing the third axis of `[A, B, C, D]`: the index `(a, b, d)` with coordinate `k` inserted is `(a, b, k, d)`. -/
theorem lift_third4 {A B C D : ℕ} (h : (⟨4, ![A, B, C, D]⟩ : Shape).Reduces [2] ⟨3, ![A, B, D]⟩)
    (a : Fin A) (b : Fin B) (d : Fin D) (k : Fin C) :
    h.lift (ix3 a b d) k = ix4 a b k d := by
  funext c
  match c with
  | ⟨0, _⟩ => exact Fin.ext rfl
  | ⟨1, _⟩ => exact Fin.ext rfl
  | ⟨2, _⟩ => exact Fin.ext rfl
  | ⟨3, _⟩ => exact Fin.ext rfl

end Cert.LibMinAxis

end
-- ==== Proof.RefSide.lean ====
/-
  The plain program read as the mathematics.

  The plain program builds the whole three-index table of squared distances, entry `(b, i, j)` being
  |x(b,i)|² + |y(b,j)|² − 2·⟨x(b,i), y(b,j)⟩ (`table_at`), and takes the minimum of each line of it along the
  last axis and along the middle axis, starting from +∞. On the extended reals such a minimum is the greatest
  lower bound of the line, so the two results are the two nearest-neighbour arrays (`nearX_ref`, `nearY_ref`);
  what follows them in the program is the loss, operation for operation (`loss_ref`).
-/
import proofs.«112872_j39951785787527_2_alg».proof.Proof.Spec
import proofs.«112872_j39951785787527_2_alg».proof.Proof.Gen.ReferenceIdeal.Read
import proofs.«112872_j39951785787527_2_alg».proof.Proof.LibMinAxis

noncomputable section

namespace Cert.Chamfer.Ref

open Cert.ReferenceIdeal Cert.ReferenceIdeal.Gen Cert.ReferenceIdeal.Read
open Idealize.ShloMosaic Idealize.ShloMosaic.ValueIdx
open scoped BigOperators

/-- The word of the constant two denotes two. -/
theorem ofBits_two_f32 : Ideal.ofBits .f32 0x40000000#32 = (2 : EReal) := by
  simp [Ideal.ofBits, Ideal.ieee, -EReal.coe_mul]; norm_num; rfl

/-- The word of the minimum's initial value denotes +∞. -/
theorem ofBits_top_f32 : Ideal.ofBits .f32 0x7F800000#32 = (⊤ : EReal) := by
  simp [Ideal.ofBits, Ideal.ieee]

/-- Reducing the last axis of `[A, B, C]`: the index `(r, q)` with coordinate `k` inserted is `(r, q, k)`. -/
theorem lift_last3 {A B C : ℕ} (h : (⟨3, ![A, B, C]⟩ : Shape).Reduces [2] ⟨2, ![A, B]⟩) (r : Fin A) (q : Fin B) (k : Fin C) :
    h.lift (ix2 r q) k = ix3 r q k := by
  funext c
  match c with
  | ⟨0, _⟩ => exact Fin.ext rfl
  | ⟨1, _⟩ => exact Fin.ext rfl
  | ⟨2, _⟩ => exact Fin.ext rfl

/-- One entry of the table the plain program builds is the squared distance between the two points. -/
theorem table_at (x0 x1 : (⟨S16x2048x3, .f32⟩ : BufTy).Contents (Elt Ideal)) (b : Fin 16) (i j : Fin 2048) :
    val_main_v12 (F := Ideal) x0 x1 (ix3 b i j) = dist x1 x0 b i j := by
  have e1 : ∀ k : Fin 3, idx_main_v1 (idx_main_v4 (idx_main_v6 (ix3 b i j))) k = ix3 b i k := fun k =>
    funext fun a => Fin.ext (by match a with | ⟨0, _⟩ => rfl | ⟨1, _⟩ => rfl | ⟨2, _⟩ => rfl)
  have e3 : ∀ k : Fin 3, idx_main_v3 (idx_main_v5 (idx_main_v7 (ix3 b i j))) k = ix3 b j k := fun k =>
    funext fun a => Fin.ext (by match a with | ⟨0, _⟩ => rfl | ⟨1, _⟩ => rfl | ⟨2, _⟩ => rfl)
  have el : ∀ k : Fin 3, lidx_main_v9 (ix3 b i j) k = ix3 b i k := fun k =>
    funext fun a => Fin.ext (by match a with | ⟨0, _⟩ => rfl | ⟨1, _⟩ => rfl | ⟨2, _⟩ => rfl)
  have er : ∀ k : Fin 3, ridx_main_v9 (ix3 b i j) k = ix3 b j k := fun k =>
    funext fun a => Fin.ext (by match a with | ⟨0, _⟩ => rfl | ⟨1, _⟩ => rfl | ⟨2, _⟩ => rfl)
  rw [val_main_v12_apply, val_main_v8_apply, val_main_v6_apply, val_main_v7_apply, val_main_v4_apply,
    val_main_v5_apply, val_main_v1_apply, val_main_v3_apply, val_main_v11_apply, val_main_v10_apply,
    val_main_v9_apply, val_main_cst_apply, val_main_cst_0_apply, val_main_cst_1_apply]
  simp only [val_main_v0_apply, val_main_v2_apply, e1, e3, el, er, Ideal.ofBits_def, Ideal.ofBits_zero_f32,
    ofBits_two_f32, zero_add, Ideal.mulf_def, Ideal.addf_def, Ideal.subf_def]
  rfl

/-- The minimum along the last axis: for each point of the first cloud, the nearest of the second. -/
theorem nearX_ref (x0 x1 : (⟨S16x2048x3, .f32⟩ : BufTy).Contents (Elt Ideal)) :
    val_main_v13 (F := Ideal) x0 x1 = nearX x1 x0 := by
  funext p
  obtain ⟨b, i, rfl⟩ : ∃ b i, p = ix2 b i := ⟨p 0, p 1, eq_ix2 p⟩
  have hR : S16x2048x2048.Reduces [2] S16x2048 := by decide
  unfold val_main_v13
  refine (Cert.LibMinAxis.hostMin_single_eq_iInf _ _ reducesTo_S16x2048x2048_S16x2048_d2 hR h_S_
    ((val_main_cst_2_apply _).trans ofBits_top_f32) _).trans ?_
  show (⨅ k : Fin 2048, val_main_v12 (F := Ideal) x0 x1 (hR.lift (ix2 b i) k)) = ⨅ j : Fin 2048, dist x1 x0 b i j
  refine iInf_congr fun k => ?_
  rw [lift_last3 hR b i k, table_at]

/-- The minimum along the middle axis: for each point of the second cloud, the nearest of the first. -/
theorem nearY_ref (x0 x1 : (⟨S16x2048x3, .f32⟩ : BufTy).Contents (Elt Ideal)) :
    val_main_v14 (F := Ideal) x0 x1 = nearY x1 x0 := by
  funext p
  obtain ⟨b, j, rfl⟩ : ∃ b j, p = ix2 b j := ⟨p 0, p 1, eq_ix2 p⟩
  have hR : S16x2048x2048.Reduces [1] S16x2048 := by decide
  unfold val_main_v14
  refine (Cert.LibMinAxis.hostMin_single_eq_iInf _ _ reducesTo_S16x2048x2048_S16x2048_d1 hR h_S_
    ((val_main_cst_3_apply _).trans ofBits_top_f32) _).trans ?_
  show (⨅ k : Fin 2048, val_main_v12 (F := Ideal) x0 x1 (hR.lift (ix2 b j) k)) = ⨅ i : Fin 2048, dist x1 x0 b i j
  refine iInf_congr fun k => ?_
  rw [Cert.LibMinAxis.lift_mid3 hR b j k, table_at]

/-- The plain program's result is the loss of the two nearest-neighbour arrays, the mask and the fourth array,
    whichever proofs of the four shape facts the loss is given (they are propositions). -/
theorem loss_ref_any (hr2 : Mat.ReducesTo [0, 1] Sc) (hr3 : Pts.ReducesTo [0, 1, 2] Sc) (h0 : 0 < Sc.numel)
    (hsc : MaskS.ShapeCasts Mat) (x0 x1 : (⟨S16x2048x3, .f32⟩ : BufTy).Contents (Elt Ideal))
    (x2 : (⟨S4x4x2x32x32, .f32⟩ : BufTy).Contents (Elt Ideal)) (x3 : (⟨S16x2048x3, .f32⟩ : BufTy).Contents (Elt Ideal)) :
    val_main_v25 (F := Ideal) x0 x1 x2 x3 = loss hr2 hr3 h0 hsc (nearX x1 x0) (nearY x1 x0) x2 x3 := by
  rw [← nearX_ref, ← nearY_ref]
  rfl

/-- The same with the shape facts the plain program states. -/
theorem loss_ref [Cert.ReferenceIdeal.Facts] (x0 x1 : (⟨S16x2048x3, .f32⟩ : BufTy).Contents (Elt Ideal))
    (x2 : (⟨S4x4x2x32x32, .f32⟩ : BufTy).Contents (Elt Ideal)) (x3 : (⟨S16x2048x3, .f32⟩ : BufTy).Contents (Elt Ideal)) :
    val_main_v25 (F := Ideal) x0 x1 x2 x3
      = loss Cert.ReferenceIdeal.Facts₀.reducesTo_S16x2048_S_d0_1 Cert.ReferenceIdeal.Facts₀.reducesTo_S16x2048x3_S_d0_1_2
          Cert.ReferenceIdeal.Facts₀.h_S_ Cert.ReferenceIdeal.Facts₀.shapeCasts_S4x4x2x32x32_S16x2048
          (nearX x1 x0) (nearY x1 x0) x2 x3 :=
  loss_ref_any _ _ _ _ x0 x1 x2 x3

end Cert.Chamfer.Ref

end
-- ==== Proof.lean ====
/-
  A bidirectional nearest-neighbour search between two clouds of 2048 points in 16 batches, and a loss built from it.

  The kernel augments the points to five coordinates, [-2x, |x|², 1] and [y, 1, |y|²], so that one 5-term inner
  product is |x|² + |y|² − 2⟨x, y⟩; on a grid of 2 batch blocks by 8 row tiles it forms each tile's products against
  four column slices of 512, keeps the minimum over all columns per row, and folds the minimum over the tile's rows
  into an accumulator that persists over the eight row tiles of a batch block. The plain program forms the whole
  16 × 2048 × 2048 table of |x|² + |y|² − 2⟨x, y⟩ and takes the minimum along each axis. Both then take the same
  three means and add them.

  On the extended reals the two agree when the inputs are real numbers: the 5-term product is the table's entry
  (a ring identity, false at infinities, which is where the precondition is used); a minimum over 2048 columns is
  the minimum of the minima over four slices; and the accumulator, started at +inf and lowered tile by tile, ends at
  the greatest lower bound over all rows. Each program's frame — it runs to the end, nothing faults, the arguments
  are unchanged — is proved for the kernel programs through the launch of the pipelined region with host lines on
  both sides, the body run symbolically once per case (first row tile, later row tile), and for the plain program
  read off its run.
-/
import proofs.«112872_j39951785787527_2_alg».proof.Defs
import proofs.«112872_j39951785787527_2_alg».proof.Proof.Gen.Kernel
import proofs.«112872_j39951785787527_2_alg».proof.Proof.Gen.KernelIdeal
import proofs.«112872_j39951785787527_2_alg».proof.Proof.Gen.ReferenceIdeal
import proofs.«112872_j39951785787527_2_alg».proof.Proof.Gen.Pre_finite_inputs
import proofs.«112872_j39951785787527_2_alg».proof.Proof.Gen.ReferenceIdeal.Run
import proofs.«112872_j39951785787527_2_alg».proof.Proof.Gen.ReferenceIdeal.Read
import proofs.«112872_j39951785787527_2_alg».proof.Proof.WordFrame
import proofs.«112872_j39951785787527_2_alg».proof.Proof.IdealValue
import proofs.«112872_j39951785787527_2_alg».proof.Proof.RefSide

noncomputable section

namespace Cert.Proof

open Idealize.ShloMosaic Idealize.ShloMosaic.TcCoe Idealize.SL.Sem

/-- The kernel as printed runs, faults nowhere and leaves its arguments unchanged. -/
theorem frame_word : Cert.frame_Kernel := fun m ρ _ => Cert.Kernel.Region.frame m ρ

/-- So does its idealization. -/
theorem frame_ideal : Cert.frame_KernelIdeal := fun m ρ _ => Cert.KernelIdeal.Region.frame m ρ

/-- So does the plain program: its run, with the results dropped. -/
theorem frame_plain : Cert.frame_ReferenceIdeal := fun m ρ _ =>
  (θ_run Cert.ReferenceIdeal.defs _ _).mono (fun _ h c => (h c).2.2) (Cert.ReferenceIdeal.Value.run (F := Ideal) m ρ)

/-- From memories agreeing on real arguments both idealized programs end with the same loss and the same zero. -/
theorem same_loss : Cert.algebraic_KernelIdeal_ReferenceIdeal := by
  intro m ρ m' ρ' hpre hagree
  have hre : ∀ c : Dev Cert.KernelIdeal.nD,
      Cert.Chamfer.Aug.IsReal (m ((c : Thread Cert.KernelIdeal.nD Cert.KernelIdeal.τ).loc Cert.KernelIdeal.main_arg0))
        ∧ Cert.Chamfer.Aug.IsReal (m ((c : Thread Cert.KernelIdeal.nD Cert.KernelIdeal.τ).loc Cert.KernelIdeal.main_arg1)) :=
    fun c => Cert.Chamfer.Aug.isReal_of_pre _ _ _ _ (hpre c)
  refine ⟨_, _, Cert.KernelIdeal.Region.run_value m ρ hre, ?_⟩
  refine (θ_run Cert.ReferenceIdeal.defs _ _).mono (fun _ h c => ⟨?_, (h c).2.1, (h c).2.2⟩)
    (Cert.ReferenceIdeal.Value.run (F := Ideal) m' ρ')
  refine ((h c).1.trans ((Cert.ReferenceIdeal.Read.val_main_v25_eq _ _ _ _).trans
    (Cert.Chamfer.Ref.loss_ref_any Cert.KernelIdeal.Gen.reducesTo_S16x2048_S_d0_1 Cert.KernelIdeal.Gen.reducesTo_S16x2048x3_S_d0_1_2
      Cert.KernelIdeal.Gen.h_S_ Cert.KernelIdeal.Gen.shapeCasts_S4x4x2x32x32_S16x2048 _ _ _ _))).trans ?_
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_word, frame_ideal, frame_plain, trivial, same_loss⟩

end Cert.Proof

end
